-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S10000x128 : Shape := ⟨2, ![10000, 128]⟩
abbrev S1600000x128 : Shape := ⟨2, ![1600000, 128]⟩
abbrev S10000x1 : Shape := ⟨2, ![10000, 1]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 106
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S1600000x1, .f32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S1600000x1, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x1, .f32⟩
  | .local _ .vmem, ⟨40, _⟩ => ⟨S10000x1, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![160], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1600000_S1600000x1 : S1600000.ShapeCasts S1600000x1
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1600000x128.size a
  hwx1_0 : ∀ i : grid1.Coords, EltTy.bits .f32 = 32 ∨ (Rect.block (s := S1600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1600000x1.size a
  hwx1_1 : ∀ i : grid1.Coords, EltTy.bits .f32 = 32 ∨ (Rect.block (s := S1600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1600000x128.size a
  hwx1_2 : ∀ i : grid1.Coords, EltTy.bits .f32 = 32 ∨ (Rect.block (s := S1600000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1600000x128.size a
  hwx4_0 : ∀ i : grid4.Coords, EltTy.bits .f32 = 32 ∨ (Rect.block (s := S1600000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1600000x1.size a
  hwx4_1 : ∀ i : grid4.Coords, EltTy.bits .f32 = 32 ∨ (Rect.block (s := S1600000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1600000x128.size a
  hwx4_2 : ∀ i : grid4.Coords, EltTy.bits .f32 = 32 ∨ (Rect.block (s := S1600000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S100000x128.size a
  hwx5_2 : ∀ i : grid5.Coords, EltTy.bits .f32 = 32 ∨ (Rect.block (s := S100000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S1600000x64.size a
  hwx7_0 : ∀ i : grid7.Coords, EltTy.bits .f32 = 32 ∨ (Rect.block (s := S1600000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1600000x1.size a
  hwx7_1 : ∀ i : grid7.Coords, EltTy.bits .f32 = 32 ∨ (Rect.block (s := S1600000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S1600000x64.size a
  hwx7_2 : ∀ i : grid7.Coords, EltTy.bits .f32 = 32 ∨ (Rect.block (s := S1600000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v60) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v62) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v70) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v72) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v75) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v76) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v77) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S100000x128, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1600000x1, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S1600000x128, .f32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S100000x64, .f32⟩
  | .hbm, ⟨99, _⟩ => ⟨S1600000x1, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .f32⟩
  | .hbm, ⟨109, _⟩ => ⟨S1600000x64, .f32⟩
  | .hbm, ⟨110, _⟩ => ⟨S1600000x64, .f32⟩
  | .hbm, ⟨111, _⟩ => ⟨S_, .f32⟩
  | .hbm, ⟨112, _⟩ => ⟨S100000x64, .f32⟩
  | .hbm, ⟨113, _⟩ => ⟨S1600000x1, .i32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call2_cst : Ref sig .tc := ⟨.hbm, 95, rfl⟩
abbrev main_call2_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RunNamed.lean ====
/-
  The idealized kernel program's run with its result NAMED: every weakly fair execution of @main terminates,
  nothing faulting, with the result array at the contents the last boundary of the program's fold assigns to it
  (`Gen.W18`: the launch memory pushed through every stretch of host operations and every kernel region's
  write-backs), and the argument arrays as launched.  The launch is the library's theorem for a program of
  several kernel regions over the segments the frame certificate builds; the only difference from the frame
  claim is that the final state is also read at the result buffer.
-/
import proofs.«132683_j73830487818377_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read in the final state as well as the arguments. -/
theorem run_named : θ_run defs (onTc (τ := τ) (main (F := F))) ⟨m, fun _ => 0, ρ⟩ (fun r => ∀ c : Dev nD,
      r.2.mem ((c.tc : Thread nD τ).loc main_v77) = W18 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v77 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.KernelIdeal.Gen

end
-- ==== Proof.GcnSpec.lean ====
/-
  The three dense pieces of one graph-convolution layer, as whole-array functions over the extended reals.

  A layer takes node features `h : [N, 128]`, multiplies by a weight matrix (`dense`), gathers rows along edges,
  scales every gathered row `e` by the edge's normalisation coefficient `s e` (`scaleRows`), sums the scaled rows
  into their destination nodes, and adds a bias row to every node (`addBias`), clamping at zero in the hidden
  layers (`addBiasRelu`).  Gathering and the segment sum are the same host operations in both programs and are
  never opened; only the three dense pieces are computed differently (block by block over rows against one
  whole-array operation), so only they are specified here, element by element.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The shape of an `a × b` matrix. -/
abbrev M (a b : Nat) : Shape := ⟨2, ![a, b]⟩

/-- Row `r`, column `q` of `x · w` is `Σ_k x[r, k] · w[k, q]` (128 input features). -/
def dense (n c : Nat) (x : (M n 128).Idx → EReal) (w : (M 128 c).Idx → EReal) : (M n c).Idx → EReal :=
  fun i => ∑ k : Fin 128, x (ix2 (i 0) k) * w (ix2 k (i 1))

/-- Row `r` of `g` multiplied by the scalar `s[r, 0]`. -/
def scaleRows (n c : Nat) (g : (M n c).Idx → EReal) (s : (M n 1).Idx → EReal) : (M n c).Idx → EReal :=
  fun i => g i * s (ix2 (i 0) 0)

/-- The bias row `b[0, ·]` added to every row of `a`. -/
def addBias (n c : Nat) (a : (M n c).Idx → EReal) (b : (M 1 c).Idx → EReal) : (M n c).Idx → EReal :=
  fun i => a i + b (ix2 0 (i 1))

/-- The same, then clamped below at zero (the zero is the f32 word `0x00000000`, left unevaluated). -/
def addBiasRelu (n c : Nat) (a : (M n c).Idx → EReal) (b : (M 1 c).Idx → EReal) : (M n c).Idx → EReal :=
  fun i => max (a i + b (ix2 0 (i 1))) (Ideal.ofBits .f32 0x00000000#32)

theorem dense_apply (n c : Nat) (x : (M n 128).Idx → EReal) (w : (M 128 c).Idx → EReal) (r : Fin n) (q : Fin c) :
    dense n c x w (ix2 r q) = ∑ k : Fin 128, x (ix2 r k) * w (ix2 k q) := rfl

theorem scaleRows_apply (n c : Nat) (g : (M n c).Idx → EReal) (s : (M n 1).Idx → EReal) (r : Fin n) (q : Fin c) :
    scaleRows n c g s (ix2 r q) = g (ix2 r q) * s (ix2 r 0) := rfl

theorem addBias_apply (n c : Nat) (a : (M n c).Idx → EReal) (b : (M 1 c).Idx → EReal) (r : Fin n) (q : Fin c) :
    addBias n c a b (ix2 r q) = a (ix2 r q) + b (ix2 0 q) := rfl

theorem addBiasRelu_apply (n c : Nat) (a : (M n c).Idx → EReal) (b : (M 1 c).Idx → EReal) (r : Fin n) (q : Fin c) :
    addBiasRelu n c a b (ix2 r q) = max (a (ix2 r q) + b (ix2 0 q)) (Ideal.ofBits .f32 0x00000000#32) := rfl

end Cert.GcnSpec

end
-- ==== Proof.RefOps.lean ====
/-
  The reference's dense operations as the three whole-array functions of one graph-convolution layer.

  The reference multiplies all 100000 node rows by the weight matrix in one `dot_general`, scales the gathered
  rows by the coefficient vector broadcast along the features, and adds the bias vector broadcast over the
  nodes (then takes the maximum with a zero array in the hidden layers).  Element by element these are the
  functions `dense`, `scaleRows` and `addBias` / `addBiasRelu`, applied to the operand the kernel program
  builds instead: the coefficient vector reshaped to a column, the bias vector reshaped to a row.  The only law
  used is that the product of two extended reals commutes.
-/
import proofs.«132683_j73830487818377_1_alg».proof.Proof.Gen.ReferenceIdeal.Read
import proofs.«132683_j73830487818377_1_alg».proof.Proof.GcnSpec
import Idealize.ShloMosaic.Lib.Pipeline.Value
import Idealize.ShloMosaic.Lib.ValueIdx
import Idealize.ShloMosaic.PureOps.Ideal.Laws

noncomputable section

namespace Cert.ReferenceIdeal.RefOps

open Cert.ReferenceIdeal Cert.ReferenceIdeal.Gen Cert.ReferenceIdeal.Read Idealize.ShloMosaic Idealize.ShloMosaic.ValueIdx Cert.GcnSpec

/-- The host's `dot_general` of `[100000, 128]` with `[128, 128]`, as one whole-array function: the dense product. -/
theorem dot128_eq (l : FVec Ideal S100000x128 .f32) (r : FVec Ideal S128x128 .f32) :
    Host.dotGeneral dot_S100000x128_S128x128_S100000x128_1_0_0_1_n_n none l r = dense 100000 128 l r := by
  funext i
  obtain ⟨p, q, rfl⟩ : ∃ (p : Fin 100000) (q : Fin 128), i = ix2 p q := ⟨i 0, i 1, eq_ix2 i⟩
  simp only [Host.dotGeneral]
  rw [Ideal.dotGeneral_apply, ← Equiv.sum_comp (ValueIdx.contrEquiv1 dot_S100000x128_S128x128_S100000x128_1_0_0_1_n_n 128 rfl rfl).symm, dense_apply]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact lhs_main_v33_0 _ _
    | ⟨1, _⟩ => exact (lhs_main_v33_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (rhs_main_v33_0 _ _).trans hk
    | ⟨1, _⟩ => exact rhs_main_v33_1 _ _)
  rw [el, er]

/-- The host's `dot_general` of `[100000, 128]` with `[128, 64]`, as one whole-array function: the dense product. -/
theorem dot64_eq (l : FVec Ideal S100000x128 .f32) (r : FVec Ideal S128x64 .f32) :
    Host.dotGeneral dot_S100000x128_S128x64_S100000x64_1_0_0_1_n_n none l r = dense 100000 64 l r := by
  funext i
  obtain ⟨p, q, rfl⟩ : ∃ (p : Fin 100000) (q : Fin 64), i = ix2 p q := ⟨i 0, i 1, eq_ix2 i⟩
  simp only [Host.dotGeneral]
  rw [Ideal.dotGeneral_apply, ← Equiv.sum_comp (ValueIdx.contrEquiv1 dot_S100000x128_S128x64_S100000x64_1_0_0_1_n_n 128 rfl rfl).symm, dense_apply]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k := funext fun a => Fin.ext (by
    match a with
    | ⟨0, _⟩ => exact lhs_main_v69_0 _ _
    | ⟨1, _⟩ => exact (lhs_main_v69_1 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q := funext fun a => Fin.ext (by
    match a with
    | ⟨0, _⟩ => exact (rhs_main_v69_0 _ _).trans hk
    | ⟨1, _⟩ => exact rhs_main_v69_1 _ _)
  rw [el, er]

/-- Scaling the gathered rows by the coefficient vector reshaped to a column is the reference's product with the
    vector broadcast along the features (the product of extended reals commutes). -/
theorem scale128_eq (g : FVec Ideal S1600000x128 .f32) (n : FVec Ideal S1600000 .f32) (h : S1600000.ShapeCasts S1600000x1) :
    scaleRows 1600000 128 g (shapeCast S1600000x1 n h)
      = mulf (broadcastInDim S1600000x128 ![0, 1] bcast_S1600000x1_S1600000x128_0_1 (broadcastInDim S1600000x1 ![0] bcast_S1600000_S1600000x1_0 n)) g := by
  funext i
  obtain ⟨e, q, rfl⟩ : ∃ (e : Fin 1600000) (q : Fin 128), i = ix2 e q := ⟨i 0, i 1, eq_ix2 i⟩
  rw [scaleRows_apply, mulf_apply]
  rw [broadcastInDim_apply _ bcast_S1600000x1_S1600000x128_0_1 _ (ix2 e q) (ix2 e (0 : Fin 1)) (fun a => match a with
    | ⟨0, _⟩ => by show e.val = if (1600000 : Nat) = 1 then 0 else e.val; rw [if_neg (by decide)]
    | ⟨1, _⟩ => by show 0 = if (1 : Nat) = 1 then 0 else q.val; rw [if_pos rfl])]
  rw [broadcastInDim_apply _ bcast_S1600000_S1600000x1_0 n (ix2 e (0 : Fin 1)) (ix1 e) (fun a => match a with
    | ⟨0, _⟩ => by show e.val = if (1600000 : Nat) = 1 then 0 else e.val; rw [if_neg (by decide)])]
  rw [shapeCast_apply n h (ix2 e (0 : Fin 1)) (ix1 e) (by
    rw [Shape.rowMajor_val_one, Shape.rowMajor_val_two]; show e.val = e.val * 1 + 0; omega)]
  exact mul_comm _ _

/-- Scaling the gathered rows by the coefficient vector reshaped to a column is the reference's product with the
    vector broadcast along the features (the product of extended reals commutes). -/
theorem scale64_eq (g : FVec Ideal S1600000x64 .f32) (n : FVec Ideal S1600000 .f32) (h : S1600000.ShapeCasts S1600000x1) :
    scaleRows 1600000 64 g (shapeCast S1600000x1 n h)
      = mulf (broadcastInDim S1600000x64 ![0, 1] bcast_S1600000x1_S1600000x64_0_1 (broadcastInDim S1600000x1 ![0] bcast_S1600000_S1600000x1_0 n)) g := by
  funext i
  obtain ⟨e, q, rfl⟩ : ∃ (e : Fin 1600000) (q : Fin 64), i = ix2 e q := ⟨i 0, i 1, eq_ix2 i⟩
  rw [scaleRows_apply, mulf_apply]
  rw [broadcastInDim_apply _ bcast_S1600000x1_S1600000x64_0_1 _ (ix2 e q) (ix2 e (0 : Fin 1)) (fun a => match a with
    | ⟨0, _⟩ => by show e.val = if (1600000 : Nat) = 1 then 0 else e.val; rw [if_neg (by decide)]
    | ⟨1, _⟩ => by show 0 = if (1 : Nat) = 1 then 0 else q.val; rw [if_pos rfl])]
  rw [broadcastInDim_apply _ bcast_S1600000_S1600000x1_0 n (ix2 e (0 : Fin 1)) (ix1 e) (fun a => match a with
    | ⟨0, _⟩ => by show e.val = if (1600000 : Nat) = 1 then 0 else e.val; rw [if_neg (by decide)])]
  rw [shapeCast_apply n h (ix2 e (0 : Fin 1)) (ix1 e) (by
    rw [Shape.rowMajor_val_one, Shape.rowMajor_val_two]; show e.val = e.val * 1 + 0; omega)]
  exact mul_comm _ _

/-- Adding the bias vector reshaped to a row, then clamping at zero, is the reference's sum with the vector broadcast over the nodes followed by its maximum with the zero array. -/
theorem bias128_eq (a : FVec Ideal S100000x128 .f32) (b : FVec Ideal S128 .f32) (h : S128.ShapeCasts S1x128) :
    addBiasRelu 100000 128 a (shapeCast S1x128 b h)
      = maximumf (addf a (broadcastInDim S100000x128 ![0, 1] bcast_S1x128_S100000x128_0_1 (broadcastInDim S1x128 ![1] bcast_S128_S1x128_1 b)))
          (broadcastInDim S100000x128 ![] bcast_S_S100000x128 (constant S_ .f32 0x00000000#32)) := by
  funext i
  obtain ⟨p, q, rfl⟩ : ∃ (p : Fin 100000) (q : Fin 128), i = ix2 p q := ⟨i 0, i 1, eq_ix2 i⟩
  rw [addBiasRelu_apply, maximumf_apply, addf_apply]
  rw [broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rw [broadcastInDim_apply _ bcast_S128_S1x128_1 b (ix2 (0 : Fin 1) q) (ix1 q) (fun a => match a with
    | ⟨0, _⟩ => by show q.val = if (128 : Nat) = 1 then 0 else q.val; rw [if_neg (by decide)])]
  rw [shapeCast_apply b h (ix2 (0 : Fin 1) q) (ix1 q) (by
    rw [Shape.rowMajor_val_one, Shape.rowMajor_val_two]; show q.val = 0 * 128 + q.val; omega)]
  rw [broadcastInDim_apply _ bcast_S_S100000x128 (constant (F := Ideal) S_ .f32 0x00000000#32) (ix2 p q) ix0 (fun a => a.elim0)]
  rfl

/-- Adding the bias vector reshaped to a row is the reference's sum with the vector broadcast over the nodes. -/
theorem bias64_eq (a : FVec Ideal S100000x64 .f32) (b : FVec Ideal S64 .f32) (h : S64.ShapeCasts S1x64) :
    addBias 100000 64 a (shapeCast S1x64 b h)
      = addf a (broadcastInDim S100000x64 ![0, 1] bcast_S1x64_S100000x64_0_1 (broadcastInDim S1x64 ![1] bcast_S64_S1x64_1 b)) := by
  funext i
  obtain ⟨p, q, rfl⟩ : ∃ (p : Fin 100000) (q : Fin 64), i = ix2 p q := ⟨i 0, i 1, eq_ix2 i⟩
  rw [addBias_apply, addf_apply]
  rw [broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  rw [broadcastInDim_apply _ bcast_S64_S1x64_1 b (ix2 (0 : Fin 1) q) (ix1 q) (fun a => match a with
    | ⟨0, _⟩ => by show q.val = if (64 : Nat) = 1 then 0 else q.val; rw [if_neg (by decide)])]
  rw [shapeCast_apply b h (ix2 (0 : Fin 1) q) (ix1 q) (by
    rw [Shape.rowMajor_val_one, Shape.rowMajor_val_two]; show q.val = 0 * 64 + q.val; omega)]

end Cert.ReferenceIdeal.RefOps

end
-- ==== Proof.PayLin.lean ====
/-
  What one grid point of a linear-layer kernel stores, element by element: row `r`, column `q` of its output
  block is `Σ_k x[r, k] · w[k, q]` over the 128 input features, `x` the point's block of 10000 node rows and `w`
  the whole weight matrix. (The three linear kernels differ only in a shape cast to the same shape in front, and in
  the output width.)
-/
import proofs.«132683_j73830487818377_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

/-! ### The operand indices of the `S10000x128` block product -/

theorem lhs128_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs128_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs128_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs128_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block's matrix product into a zero accumulator, read at row `r`, column `q`: the sum over the 128 shared
    features of the products. The narrowing of both operands to bf16 on the way in is the identity on extended reals. -/
theorem blockProduct128 (x : FVec Ideal S10000x128 .bf16) (w : FVec Ideal S128x128 .bf16) (r : Fin 10000) (q : Fin 128) :
    matmul dot_S10000x128_S128x128_S10000x128_1_0_0_1_n_n none x w (constant S10000x128 .f32 0x00000000#32) (ix2 r q)
      = ∑ k : Fin 128, x (ix2 r k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r q) ((ValueIdx.contrEquiv1 dot_S10000x128_S128x128_S10000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S10000x128_S128x128_S10000x128_1_0_0_1_n_n.rhsIdx (ix2 r q) ((ValueIdx.contrEquiv1 dot_S10000x128_S128x128_S10000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The operand indices of the `S10000x64` block product -/

theorem lhs64_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs64_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs64_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs64_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A block's matrix product into a zero accumulator, read at row `r`, column `q`: the sum over the 128 shared
    features of the products. The narrowing of both operands to bf16 on the way in is the identity on extended reals. -/
theorem blockProduct64 (x : FVec Ideal S10000x128 .bf16) (w : FVec Ideal S128x64 .bf16) (r : Fin 10000) (q : Fin 64) :
    matmul dot_S10000x128_S128x64_S10000x64_1_0_0_1_n_n none x w (constant S10000x64 .f32 0x00000000#32) (ix2 r q)
      = ∑ k : Fin 128, x (ix2 r k) * w (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 r q) ((ValueIdx.contrEquiv1 dot_S10000x128_S128x64_S10000x64_1_0_0_1_n_n 128 rfl rfl).symm k) = ix2 r k := funext fun a => Fin.ext (by
    match a with
    | ⟨0, _⟩ => exact lhs64_0 _ _
    | ⟨1, _⟩ => exact (lhs64_1 _ _).trans hk)
  have er : dot_S10000x128_S128x64_S10000x64_1_0_0_1_n_n.rhsIdx (ix2 r q) ((ValueIdx.contrEquiv1 dot_S10000x128_S128x64_S10000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-! ### The three linear kernels' stored values -/

theorem k0_pay_apply (x : Vec Ideal S10000x128 .f32) (w : Vec Ideal S128x128 .f32) (r : Fin 10000) (q : Fin 128) :
    k0_pay1 x w (ix2 r q) = ∑ k : Fin 128, x (ix2 r k) * w (ix2 k q) := by
  unfold k0_pay1
  exact (blockProduct128 _ _ r q).trans (Finset.sum_congr rfl fun k _ => rfl)

theorem k3_pay_apply (x : Vec Ideal S10000x128 .f32) (w : Vec Ideal S128x128 .f32) (r : Fin 10000) (q : Fin 128) :
    k3_pay1 x w (ix2 r q) = ∑ k : Fin 128, x (ix2 r k) * w (ix2 k q) := by
  unfold k3_pay1
  refine (blockProduct128 _ _ r q).trans (Finset.sum_congr rfl fun k _ => ?_)
  rw [shapeCast_self]; rfl

theorem k6_pay_apply (x : Vec Ideal S10000x128 .f32) (w : Vec Ideal S128x64 .f32) (r : Fin 10000) (q : Fin 64) :
    k6_pay1 x w (ix2 r q) = ∑ k : Fin 128, x (ix2 r k) * w (ix2 k q) := by
  unfold k6_pay1
  refine (blockProduct64 _ _ r q).trans (Finset.sum_congr rfl fun k _ => ?_)
  rw [shapeCast_self]; rfl

end Cert.KernelIdeal.Pay

end
-- ==== Proof.Reg0.lean ====
/-
  Kernel region 0 as ONE function of the arrays it is entered with: the product of the node features with the weight matrix.

  The region walks 10 blocks of 10000 rows.  Point `t` reads rows `10000·t … 10000·t + 9999` of its first
  operand and the whole weight matrix, and writes the same rows of the output; the blocks are disjoint and
  fill the output, so the array the region leaves is the whole-array function `dense 100000 128` of the two operand arrays
  as the region found them, whatever those are.
-/
import proofs.«132683_j73830487818377_1_alg».proof.Proof.Gen.KernelIdeal.Frame
import proofs.«132683_j73830487818377_1_alg».proof.Proof.PayLin
import proofs.«132683_j73830487818377_1_alg».proof.Proof.GcnSpec

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_N (t : Fin cfg0.N) : t.val < 10 := lt_of_lt_of_eq t.isLt N_0

/-- Row `r` of point `t`'s block is row `10000·t + r` of the array. -/
def row (t : Fin cfg0.N) (r : Fin 10000) : Fin 100000 := ⟨t.val * 10000 + r.val, by have := lt_N t; have := r.isLt; omega⟩

/-- The first operand's block at point `t`, read at `(r, k)`. -/
theorem read0 (c : Dev nD) (t : Fin cfg0.N) (r : Fin 10000) (k : Fin 128) :
    iblk0 V c 0 t (ix2 r k) = V c main_arg0 (ix2 (row t r) k) := by
  obtain ⟨e0, e1, e2, e3, e4, e5⟩ := idx_facts t
  show V c main_arg0 (((cfg0.win 0).blk t).view.emb (ix2 r k)) = V c main_arg0 (ix2 (row t r) k)
  refine congrArg (V c main_arg0) (funext fun a => Fin.ext ?_)
  match a with
  | ⟨0, _⟩ => show win0_0.index t (0 : Fin 2) * 10000 + 1 * r.val = t.val * 10000 + r.val; omega
  | ⟨1, _⟩ => show win0_0.index t (1 : Fin 2) * 128 + 1 * k.val = k.val; omega

/-- The weight matrix's one block is the whole matrix. -/
theorem read1 (c : Dev nD) (t : Fin cfg0.N) (k : Fin 128) (q : Fin 128) :
    iblk0 V c 1 t (ix2 k q) = V c main_arg3 (ix2 k q) := by
  obtain ⟨e0, e1, e2, e3, e4, e5⟩ := idx_facts t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Where the output's block at point `t` sits in the output array. -/
theorem emb_out (t : Fin cfg0.N) (r : Fin 10000) (q : Fin 128) :
    ((cfg0.win 2).blk t).view.emb (ix2 r q) = ix2 (row t r) q := by
  obtain ⟨e0, e1, e2, e3, e4, e5⟩ := idx_facts t
  refine funext fun a => Fin.ext ?_
  match a with
  | ⟨0, _⟩ => show win0_2.index t (0 : Fin 2) * 10000 + 1 * r.val = t.val * 10000 + r.val; omega
  | ⟨1, _⟩ => show win0_2.index t (1 : Fin 2) * 128 + 1 * q.val = q.val; omega

/-- WHAT POINT `t` WRITES BACK is block `t` of `dense 100000 128` of the operand arrays as the region finds them. -/
theorem flushed_eq (c : Dev nD) (t : Fin cfg0.N) :
    (dat0 V c).flushed 2 t
      = ((cfg0.win 2).blk t).view.read (Elt Ideal) (dense 100000 128 (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨r, q, rfl⟩ : ∃ (r : Fin 10000) (q : Fin 128), j = ix2 r q := ⟨j 0, j 1, eq_ix2 j⟩
  show k0_pay1 (iblk0 V c 0 t) (iblk0 V c 1 t) (ix2 r q)
    = dense 100000 128 (V c main_arg0) (V c main_arg3) (((cfg0.win 2).blk t).view.emb (ix2 r q))
  refine (Pay.k0_pay_apply (iblk0 V c 0 t) (iblk0 V c 1 t) r q).trans ?_
  rw [emb_out t r q]
  rw [dense_apply]
  refine Finset.sum_congr rfl fun k _ => ?_
  rw [read0 V c t r k, read1 V c t k q]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- Every row of the output lies in the block of the point `row / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY THE REGION LEAVES: `dense 100000 128` of its two operand arrays as entered. -/
theorem final (c : Dev nD) :
    (dat0 V c).arrAt 2 cfg0.N = dense 100000 128 (V c main_arg0) (V c main_arg3) :=
  (dat0 V c).arrAt_eq_of_cover 2 (dense 100000 128 (V c main_arg0) (V c main_arg3)) (fun t _ => flushed_eq V c t) cover

end Cert.KernelIdeal.Reg0

end
-- ==== Proof.PayPointwise.lean ====
/-
  What one grid point of an edge-scaling kernel stores: row `r` of its block of gathered node rows, multiplied
  by the one coefficient `s[r, 0]` of that edge (the coefficient column is broadcast along the features).
  And what one grid point of a bias kernel stores: its block of aggregated rows plus the one bias row, clamped at
  zero in the hidden layers.
-/
import proofs.«132683_j73830487818377_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k1_pay_apply (x : Vec Ideal S10000x128 .f32) (s : Vec Ideal S10000x1 .f32) (r : Fin 10000) (q : Fin 128) :
    k1_pay1 x s (ix2 r q) = x (ix2 r q) * s (ix2 r (0 : Fin 1)) := by
  unfold k1_pay1
  show (shapeCast S10000x128 x _) (ix2 r q) * (broadcastTo S10000x128 (shapeCast S10000x1 s _) _) (ix2 r q) = _
  rw [shapeCast_self, shapeCast_self, broadcastTo_a1_ab_apply]

theorem k4_pay_apply (x : Vec Ideal S10000x128 .f32) (s : Vec Ideal S10000x1 .f32) (r : Fin 10000) (q : Fin 128) :
    k4_pay1 x s (ix2 r q) = x (ix2 r q) * s (ix2 r (0 : Fin 1)) := by
  unfold k4_pay1
  show (shapeCast S10000x128 x _) (ix2 r q) * (broadcastTo S10000x128 (shapeCast S10000x1 s _) _) (ix2 r q) = _
  rw [shapeCast_self, shapeCast_self, broadcastTo_a1_ab_apply]

theorem k7_pay_apply (x : Vec Ideal S10000x64 .f32) (s : Vec Ideal S10000x1 .f32) (r : Fin 10000) (q : Fin 64) :
    k7_pay1 x s (ix2 r q) = x (ix2 r q) * s (ix2 r (0 : Fin 1)) := by
  unfold k7_pay1
  show (shapeCast S10000x64 x _) (ix2 r q) * (broadcastTo S10000x64 (shapeCast S10000x1 s _) _) (ix2 r q) = _
  rw [shapeCast_self, shapeCast_self, broadcastTo_a1_ab_apply]

theorem k2_pay_apply (x : Vec Ideal S10000x128 .f32) (b : Vec Ideal S1x128 .f32) (r : Fin 10000) (q : Fin 128) :
    k2_pay1 x b (ix2 r q) = max (x (ix2 r q) + b (ix2 (0 : Fin 1) q)) (Ideal.ofBits .f32 0x00000000#32) := by
  unfold k2_pay1
  show max ((shapeCast S10000x128 x _) (ix2 r q) + (broadcastTo S10000x128 (shapeCast S1x128 b _) _) (ix2 r q)) _ = _
  rw [shapeCast_self, shapeCast_self, broadcastTo_1b_ab_apply]
  rfl

theorem k5_pay_apply (x : Vec Ideal S10000x128 .f32) (b : Vec Ideal S1x128 .f32) (r : Fin 10000) (q : Fin 128) :
    k5_pay1 x b (ix2 r q) = max (x (ix2 r q) + b (ix2 (0 : Fin 1) q)) (Ideal.ofBits .f32 0x00000000#32) := by
  unfold k5_pay1
  show max ((shapeCast S10000x128 x _) (ix2 r q) + (broadcastTo S10000x128 (shapeCast S1x128 b _) _) (ix2 r q)) _ = _
  rw [shapeCast_self, shapeCast_self, broadcastTo_1b_ab_apply]
  rfl

theorem k8_pay_apply (x : Vec Ideal S10000x64 .f32) (b : Vec Ideal S1x64 .f32) (r : Fin 10000) (q : Fin 64) :
    k8_pay1 x b (ix2 r q) = x (ix2 r q) + b (ix2 (0 : Fin 1) q) := by
  unfold k8_pay1
  show (shapeCast S10000x64 x _) (ix2 r q) + (broadcastTo S10000x64 (shapeCast S1x64 b _) _) (ix2 r q) = _
  rw [shapeCast_self, shapeCast_self, broadcastTo_1b_ab_apply]

end Cert.KernelIdeal.Pay

end
-- ==== Proof.Reg1.lean ====
/-
  Kernel region 1 as ONE function of the arrays it is entered with: every gathered row times its edge's coefficient.

  The region walks 160 blocks of 10000 rows.  Point `t` reads rows `10000·t … 10000·t + 9999` of its first
  operand and of the coefficient column, and writes the same rows of the output; the blocks are disjoint and
  fill the output, so the array the region leaves is the whole-array function `scaleRows 1600000 128` of the two operand arrays
  as the region found them, whatever those are.
-/
import proofs.«132683_j73830487818377_1_alg».proof.Proof.Gen.KernelIdeal.Frame
import proofs.«132683_j73830487818377_1_alg».proof.Proof.PayPointwise
import proofs.«132683_j73830487818377_1_alg».proof.Proof.GcnSpec

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem lt_N (t : Fin cfg1.N) : t.val < 160 := lt_of_lt_of_eq t.isLt N_1

/-- Row `r` of point `t`'s block is row `10000·t + r` of the array. -/
def row (t : Fin cfg1.N) (r : Fin 10000) : Fin 1600000 := ⟨t.val * 10000 + r.val, by have := lt_N t; have := r.isLt; omega⟩

/-- The first operand's block at point `t`, read at `(r, k)`. -/
theorem read0 (c : Dev nD) (t : Fin cfg1.N) (r : Fin 10000) (k : Fin 128) :
    iblk1 V c 0 t (ix2 r k) = V c main_v40 (ix2 (row t r) k) := by
  obtain ⟨e0, e1, e2, e3, e4, e5⟩ := idx_facts t
  show V c main_v40 (((cfg1.win 0).blk t).view.emb (ix2 r k)) = V c main_v40 (ix2 (row t r) k)
  refine congrArg (V c main_v40) (funext fun a => Fin.ext ?_)
  match a with
  | ⟨0, _⟩ => show win1_0.index t (0 : Fin 2) * 10000 + 1 * r.val = t.val * 10000 + r.val; omega
  | ⟨1, _⟩ => show win1_0.index t (1 : Fin 2) * 128 + 1 * k.val = k.val; omega

/-- The coefficient column's block at point `t`, read at row `r`. -/
theorem read1 (c : Dev nD) (t : Fin cfg1.N) (r : Fin 10000) :
    iblk1 V c 1 t (ix2 r (0 : Fin 1)) = V c main_v41 (ix2 (row t r) (0 : Fin 1)) := by
  obtain ⟨e0, e1, e2, e3, e4, e5⟩ := idx_facts t
  show V c main_v41 (((cfg1.win 1).blk t).view.emb (ix2 r (0 : Fin 1))) = V c main_v41 (ix2 (row t r) (0 : Fin 1))
  refine congrArg (V c main_v41) (funext fun a => Fin.ext ?_)
  match a with
  | ⟨0, _⟩ => show win1_1.index t (0 : Fin 2) * 10000 + 1 * r.val = t.val * 10000 + r.val; omega
  | ⟨1, _⟩ => show win1_1.index t (1 : Fin 2) * 1 + 1 * 0 = 0; omega

/-- Where the output's block at point `t` sits in the output array. -/
theorem emb_out (t : Fin cfg1.N) (r : Fin 10000) (q : Fin 128) :
    ((cfg1.win 2).blk t).view.emb (ix2 r q) = ix2 (row t r) q := by
  obtain ⟨e0, e1, e2, e3, e4, e5⟩ := idx_facts t
  refine funext fun a => Fin.ext ?_
  match a with
  | ⟨0, _⟩ => show win1_2.index t (0 : Fin 2) * 10000 + 1 * r.val = t.val * 10000 + r.val; omega
  | ⟨1, _⟩ => show win1_2.index t (1 : Fin 2) * 128 + 1 * q.val = q.val; omega

/-- WHAT POINT `t` WRITES BACK is block `t` of `scaleRows 1600000 128` of the operand arrays as the region finds them. -/
theorem flushed_eq (c : Dev nD) (t : Fin cfg1.N) :
    (dat1 V c).flushed 2 t
      = ((cfg1.win 2).blk t).view.read (Elt Ideal) (scaleRows 1600000 128 (V c main_v40) (V c main_v41)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  funext j
  obtain ⟨r, q, rfl⟩ : ∃ (r : Fin 10000) (q : Fin 128), j = ix2 r q := ⟨j 0, j 1, eq_ix2 j⟩
  show k1_pay1 (iblk1 V c 0 t) (iblk1 V c 1 t) (ix2 r q)
    = scaleRows 1600000 128 (V c main_v40) (V c main_v41) (((cfg1.win 2).blk t).view.emb (ix2 r q))
  refine (Pay.k1_pay_apply (iblk1 V c 0 t) (iblk1 V c 1 t) r q).trans ?_
  rw [emb_out t r q]
  rw [scaleRows_apply, read0 V c t r q, read1 V c t r]

/-- An index of the output array is in point `t`'s block iff each coordinate is in the block's range on its axis. -/
theorem mem_blk (t : Fin cfg1.N) (i : S1600000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v42).slice (win1_2.rect t)).set ↔ _
  rw [View.set_slice_whole, Rect.mem_set_unit]
  exact Iff.rfl

/-- Every row of the output lies in the block of the point `row / 10000`. -/
theorem cover (i : S1600000x128.Idx) : ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 160 := N_1
  obtain ⟨t, ht⟩ : ∃ t : Fin cfg1.N, t.val = (i 0).val / 10000 := ⟨⟨(i 0).val / 10000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- THE ARRAY THE REGION LEAVES: `scaleRows 1600000 128` of its two operand arrays as entered. -/
theorem final (c : Dev nD) :
    (dat1 V c).arrAt 2 cfg1.N = scaleRows 1600000 128 (V c main_v40) (V c main_v41) :=
  (dat1 V c).arrAt_eq_of_cover 2 (scaleRows 1600000 128 (V c main_v40) (V c main_v41)) (fun t _ => flushed_eq V c t) cover

end Cert.KernelIdeal.Reg1

end
-- ==== Proof.Reg2.lean ====
/-
  Kernel region 2 as ONE function of the arrays it is entered with: every aggregated row plus the bias row, clamped at zero.

  The region walks 10 blocks of 10000 rows.  Point `t` reads rows `10000·t … 10000·t + 9999` of its first
  operand and the one bias row, and writes the same rows of the output; the blocks are disjoint and
  fill the output, so the array the region leaves is the whole-array function `addBiasRelu 100000 128` of the two operand arrays
  as the region found them, whatever those are.
-/
import proofs.«132683_j73830487818377_1_alg».proof.Proof.Gen.KernelIdeal.Frame
import proofs.«132683_j73830487818377_1_alg».proof.Proof.PayPointwise
import proofs.«132683_j73830487818377_1_alg».proof.Proof.GcnSpec

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_N (t : Fin cfg2.N) : t.val < 10 := lt_of_lt_of_eq t.isLt N_2

/-- Row `r` of point `t`'s block is row `10000·t + r` of the array. -/
def row (t : Fin cfg2.N) (r : Fin 10000) : Fin 100000 := ⟨t.val * 10000 + r.val, by have := lt_N t; have := r.isLt; omega⟩

/-- The first operand's block at point `t`, read at `(r, k)`. -/
theorem read0 (c : Dev nD) (t : Fin cfg2.N) (r : Fin 10000) (k : Fin 128) :
    iblk2 V c 0 t (ix2 r k) = V c main_v45 (ix2 (row t r) k) := by
  obtain ⟨e0, e1, e2, e3, e4, e5⟩ := idx_facts t
  show V c main_v45 (((cfg2.win 0).blk t).view.emb (ix2 r k)) = V c main_v45 (ix2 (row t r) k)
  refine congrArg (V c main_v45) (funext fun a => Fin.ext ?_)
  match a with
  | ⟨0, _⟩ => show win2_0.index t (0 : Fin 2) * 10000 + 1 * r.val = t.val * 10000 + r.val; omega
  | ⟨1, _⟩ => show win2_0.index t (1 : Fin 2) * 128 + 1 * k.val = k.val; omega

/-- The bias row's one block is the whole row. -/
theorem read1 (c : Dev nD) (t : Fin cfg2.N) (q : Fin 128) :
    iblk2 V c 1 t (ix2 (0 : Fin 1) q) = V c main_v46 (ix2 (0 : Fin 1) q) := by
  obtain ⟨e0, e1, e2, e3, e4, e5⟩ := idx_facts t
  show V c main_v46 (((cfg2.win 1).blk t).view.emb (ix2 (0 : Fin 1) q)) = V c main_v46 (ix2 (0 : Fin 1) q)
  refine congrArg (V c main_v46) (funext fun a => Fin.ext ?_)
  match a with
  | ⟨0, _⟩ => show win2_1.index t (0 : Fin 2) * 1 + 1 * 0 = 0; omega
  | ⟨1, _⟩ => show win2_1.index t (1 : Fin 2) * 128 + 1 * q.val = q.val; omega

/-- Where the output's block at point `t` sits in the output array. -/
theorem emb_out (t : Fin cfg2.N) (r : Fin 10000) (q : Fin 128) :
    ((cfg2.win 2).blk t).view.emb (ix2 r q) = ix2 (row t r) q := by
  obtain ⟨e0, e1, e2, e3, e4, e5⟩ := idx_facts t
  refine funext fun a => Fin.ext ?_
  match a with
  | ⟨0, _⟩ => show win2_2.index t (0 : Fin 2) * 10000 + 1 * r.val = t.val * 10000 + r.val; omega
  | ⟨1, _⟩ => show win2_2.index t (1 : Fin 2) * 128 + 1 * q.val = q.val; omega

/-- WHAT POINT `t` WRITES BACK is block `t` of `addBiasRelu 100000 128` of the operand arrays as the region finds them. -/
theorem flushed_eq (c : Dev nD) (t : Fin cfg2.N) :
    (dat2 V c).flushed 2 t
      = ((cfg2.win 2).blk t).view.read (Elt Ideal) (addBiasRelu 100000 128 (V c main_v45) (V c main_v46)) := by
  show (cfg2.win 2).cut (grid2.coords t) ((dat2 V c).after 2 t) = _
  rw [after2_2]
  unfold out2_2
  rw [View.canon_unit_zero hz]
  simp only [View.ld_unit_zero (S := S10000x128) hz, View.ld_unit_zero (S := S1x128) hz]
  funext j
  obtain ⟨r, q, rfl⟩ : ∃ (r : Fin 10000) (q : Fin 128), j = ix2 r q := ⟨j 0, j 1, eq_ix2 j⟩
  show k2_pay1 (iblk2 V c 0 t) (iblk2 V c 1 t) (ix2 r q)
    = addBiasRelu 100000 128 (V c main_v45) (V c main_v46) (((cfg2.win 2).blk t).view.emb (ix2 r q))
  refine (Pay.k2_pay_apply (iblk2 V c 0 t) (iblk2 V c 1 t) r q).trans ?_
  rw [emb_out t r q]
  rw [addBiasRelu_apply, read0 V c t r q, read1 V c t q]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v47).slice (win2_2.rect t)).set ↔ _
  rw [View.set_slice_whole, Rect.mem_set_unit]
  exact Iff.rfl

/-- Every row of the output lies in the block of the point `row / 10000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE ARRAY THE REGION LEAVES: `addBiasRelu 100000 128` of its two operand arrays as entered. -/
theorem final (c : Dev nD) :
    (dat2 V c).arrAt 2 cfg2.N = addBiasRelu 100000 128 (V c main_v45) (V c main_v46) :=
  (dat2 V c).arrAt_eq_of_cover 2 (addBiasRelu 100000 128 (V c main_v45) (V c main_v46)) (fun t _ => flushed_eq V c t) cover

end Cert.KernelIdeal.Reg2

end
-- ==== Proof.Reg3.lean ====
/-
  Kernel region 3 as ONE function of the arrays it is entered with: the product of the node features with the weight matrix.

  The region walks 10 blocks of 10000 rows.  Point `t` reads rows `10000·t … 10000·t + 9999` of its first
  operand and the whole weight matrix, and writes the same rows of the output; the blocks are disjoint and
  fill the output, so the array the region leaves is the whole-array function `dense 100000 128` of the two operand arrays
  as the region found them, whatever those are.
-/
import proofs.«132683_j73830487818377_1_alg».proof.Proof.Gen.KernelIdeal.Frame
import proofs.«132683_j73830487818377_1_alg».proof.Proof.PayLin
import proofs.«132683_j73830487818377_1_alg».proof.Proof.GcnSpec

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_N (t : Fin cfg3.N) : t.val < 10 := lt_of_lt_of_eq t.isLt N_3

/-- Row `r` of point `t`'s block is row `10000·t + r` of the array. -/
def row (t : Fin cfg3.N) (r : Fin 10000) : Fin 100000 := ⟨t.val * 10000 + r.val, by have := lt_N t; have := r.isLt; omega⟩

/-- The first operand's block at point `t`, read at `(r, k)`. -/
theorem read0 (c : Dev nD) (t : Fin cfg3.N) (r : Fin 10000) (k : Fin 128) :
    iblk3 V c 0 t (ix2 r k) = V c main_v47 (ix2 (row t r) k) := by
  obtain ⟨e0, e1, e2, e3, e4, e5⟩ := idx_facts t
  show V c main_v47 (((cfg3.win 0).blk t).view.emb (ix2 r k)) = V c main_v47 (ix2 (row t r) k)
  refine congrArg (V c main_v47) (funext fun a => Fin.ext ?_)
  match a with
  | ⟨0, _⟩ => show win3_0.index t (0 : Fin 2) * 10000 + 1 * r.val = t.val * 10000 + r.val; omega
  | ⟨1, _⟩ => show win3_0.index t (1 : Fin 2) * 128 + 1 * k.val = k.val; omega

/-- The weight matrix's one block is the whole matrix. -/
theorem read1 (c : Dev nD) (t : Fin cfg3.N) (k : Fin 128) (q : Fin 128) :
    iblk3 V c 1 t (ix2 k q) = V c main_arg5 (ix2 k q) := by
  obtain ⟨e0, e1, e2, e3, e4, e5⟩ := idx_facts t
  show V c main_arg5 (((cfg3.win 1).blk t).view.emb (ix2 k q)) = V c main_arg5 (ix2 k q)
  refine congrArg (V c main_arg5) (funext fun a => Fin.ext ?_)
  match a with
  | ⟨0, _⟩ => show win3_1.index t (0 : Fin 2) * 128 + 1 * k.val = k.val; omega
  | ⟨1, _⟩ => show win3_1.index t (1 : Fin 2) * 128 + 1 * q.val = q.val; omega

/-- Where the output's block at point `t` sits in the output array. -/
theorem emb_out (t : Fin cfg3.N) (r : Fin 10000) (q : Fin 128) :
    ((cfg3.win 2).blk t).view.emb (ix2 r q) = ix2 (row t r) q := by
  obtain ⟨e0, e1, e2, e3, e4, e5⟩ := idx_facts t
  refine funext fun a => Fin.ext ?_
  match a with
  | ⟨0, _⟩ => show win3_2.index t (0 : Fin 2) * 10000 + 1 * r.val = t.val * 10000 + r.val; omega
  | ⟨1, _⟩ => show win3_2.index t (1 : Fin 2) * 128 + 1 * q.val = q.val; omega

/-- WHAT POINT `t` WRITES BACK is block `t` of `dense 100000 128` of the operand arrays as the region finds them. -/
theorem flushed_eq (c : Dev nD) (t : Fin cfg3.N) :
    (dat3 V c).flushed 2 t
      = ((cfg3.win 2).blk t).view.read (Elt Ideal) (dense 100000 128 (V c main_v47) (V c main_arg5)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128x128) hz]
  funext j
  obtain ⟨r, q, rfl⟩ : ∃ (r : Fin 10000) (q : Fin 128), j = ix2 r q := ⟨j 0, j 1, eq_ix2 j⟩
  show k3_pay1 (iblk3 V c 0 t) (iblk3 V c 1 t) (ix2 r q)
    = dense 100000 128 (V c main_v47) (V c main_arg5) (((cfg3.win 2).blk t).view.emb (ix2 r q))
  refine (Pay.k3_pay_apply (iblk3 V c 0 t) (iblk3 V c 1 t) r q).trans ?_
  rw [emb_out t r q]
  rw [dense_apply]
  refine Finset.sum_congr rfl fun k _ => ?_
  rw [read0 V c t r k, read1 V c t k q]

/-- An index of the output array is in point `t`'s block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v48).slice (win3_2.rect t)).set ↔ _
  rw [View.set_slice_whole, Rect.mem_set_unit]
  exact Iff.rfl

/-- Every row of the output lies in the block of the point `row / 10000`. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- THE ARRAY THE REGION LEAVES: `dense 100000 128` of its two operand arrays as entered. -/
theorem final (c : Dev nD) :
    (dat3 V c).arrAt 2 cfg3.N = dense 100000 128 (V c main_v47) (V c main_arg5) :=
  (dat3 V c).arrAt_eq_of_cover 2 (dense 100000 128 (V c main_v47) (V c main_arg5)) (fun t _ => flushed_eq V c t) cover

end Cert.KernelIdeal.Reg3

end
-- ==== Proof.Reg4.lean ====
/-
  Kernel region 4 as ONE function of the arrays it is entered with: every gathered row times its edge's coefficient.

  The region walks 160 blocks of 10000 rows.  Point `t` reads rows `10000·t … 10000·t + 9999` of its first
  operand and of the coefficient column, and writes the same rows of the output; the blocks are disjoint and
  fill the output, so the array the region leaves is the whole-array function `scaleRows 1600000 128` of the two operand arrays
  as the region found them, whatever those are.
-/
import proofs.«132683_j73830487818377_1_alg».proof.Proof.Gen.KernelIdeal.Frame
import proofs.«132683_j73830487818377_1_alg».proof.Proof.PayPointwise
import proofs.«132683_j73830487818377_1_alg».proof.Proof.GcnSpec

set_option maxRecDepth 16384

noncomputable section

namespace Cert.KernelIdeal.Reg4

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

theorem lt_N (t : Fin cfg4.N) : t.val < 160 := lt_of_lt_of_eq t.isLt N_4

/-- Row `r` of point `t`'s block is row `10000·t + r` of the array. -/
def row (t : Fin cfg4.N) (r : Fin 10000) : Fin 1600000 := ⟨t.val * 10000 + r.val, by have := lt_N t; have := r.isLt; omega⟩

/-- The first operand's block at point `t`, read at `(r, k)`. -/
theorem read0 (c : Dev nD) (t : Fin cfg4.N) (r : Fin 10000) (k : Fin 128) :
    iblk4 V c 0 t (ix2 r k) = V c main_v55 (ix2 (row t r) k) := by
  obtain ⟨e0, e1, e2, e3, e4, e5⟩ := idx_facts t
  show V c main_v55 (((cfg4.win 0).blk t).view.emb (ix2 r k)) = V c main_v55 (ix2 (row t r) k)
  refine congrArg (V c main_v55) (funext fun a => Fin.ext ?_)
  match a with
  | ⟨0, _⟩ => show win4_0.index t (0 : Fin 2) * 10000 + 1 * r.val = t.val * 10000 + r.val; omega
  | ⟨1, _⟩ => show win4_0.index t (1 : Fin 2) * 128 + 1 * k.val = k.val; omega

/-- The coefficient column's block at point `t`, read at row `r`. -/
theorem read1 (c : Dev nD) (t : Fin cfg4.N) (r : Fin 10000) :
    iblk4 V c 1 t (ix2 r (0 : Fin 1)) = V c main_v56 (ix2 (row t r) (0 : Fin 1)) := by
  obtain ⟨e0, e1, e2, e3, e4, e5⟩ := idx_facts t
  show V c main_v56 (((cfg4.win 1).blk t).view.emb (ix2 r (0 : Fin 1))) = V c main_v56 (ix2 (row t r) (0 : Fin 1))
  refine congrArg (V c main_v56) (funext fun a => Fin.ext ?_)
  match a with
  | ⟨0, _⟩ => show win4_1.index t (0 : Fin 2) * 10000 + 1 * r.val = t.val * 10000 + r.val; omega
  | ⟨1, _⟩ => show win4_1.index t (1 : Fin 2) * 1 + 1 * 0 = 0; omega

/-- Where the output's block at point `t` sits in the output array. -/
theorem emb_out (t : Fin cfg4.N) (r : Fin 10000) (q : Fin 128) :
    ((cfg4.win 2).blk t).view.emb (ix2 r q) = ix2 (row t r) q := by
  obtain ⟨e0, e1, e2, e3, e4, e5⟩ := idx_facts t
  refine funext fun a => Fin.ext ?_
  match a with
  | ⟨0, _⟩ => show win4_2.index t (0 : Fin 2) * 10000 + 1 * r.val = t.val * 10000 + r.val; omega
  | ⟨1, _⟩ => show win4_2.index t (1 : Fin 2) * 128 + 1 * q.val = q.val; omega

/-- WHAT POINT `t` WRITES BACK is block `t` of `scaleRows 1600000 128` of the operand arrays as the region finds them. -/
theorem flushed_eq (c : Dev nD) (t : Fin cfg4.N) :
    (dat4 V c).flushed 2 t
      = ((cfg4.win 2).blk t).view.read (Elt Ideal) (scaleRows 1600000 128 (V c main_v55) (V c main_v56)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  funext j
  obtain ⟨r, q, rfl⟩ : ∃ (r : Fin 10000) (q : Fin 128), j = ix2 r q := ⟨j 0, j 1, eq_ix2 j⟩
  show k4_pay1 (iblk4 V c 0 t) (iblk4 V c 1 t) (ix2 r q)
    = scaleRows 1600000 128 (V c main_v55) (V c main_v56) (((cfg4.win 2).blk t).view.emb (ix2 r q))
  refine (Pay.k4_pay_apply (iblk4 V c 0 t) (iblk4 V c 1 t) r q).trans ?_
  rw [emb_out t r q]
  rw [scaleRows_apply, read0 V c t r q, read1 V c t r]

/-- An index of the output array is in point `t`'s block iff each coordinate is in the block's range on its axis. -/
theorem mem_blk (t : Fin cfg4.N) (i : S1600000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v57).slice (win4_2.rect t)).set ↔ _
  rw [View.set_slice_whole, Rect.mem_set_unit]
  exact Iff.rfl

/-- Every row of the output lies in the block of the point `row / 10000`. -/
theorem cover (i : S1600000x128.Idx) : ∃ t : Fin cfg4.N, (cfg4.win 2).flush t = true ∧ i ∈ ((cfg4.win 2).blk t).view.set := by
  have hi0 : (i 0).val < 1600000 := (i 0).isLt
  have hi1 : (i 1).val < 128 := (i 1).isLt
  have hN : cfg4.N = 160 := N_4
  obtain ⟨t, ht⟩ : ∃ t : Fin cfg4.N, t.val = (i 0).val / 10000 := ⟨⟨(i 0).val / 10000, by rw [hN]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- THE ARRAY THE REGION LEAVES: `scaleRows 1600000 128` of its two operand arrays as entered. -/
theorem final (c : Dev nD) :
    (dat4 V c).arrAt 2 cfg4.N = scaleRows 1600000 128 (V c main_v55) (V c main_v56) :=
  (dat4 V c).arrAt_eq_of_cover 2 (scaleRows 1600000 128 (V c main_v55) (V c main_v56)) (fun t _ => flushed_eq V c t) cover

end Cert.KernelIdeal.Reg4

end
-- ==== Proof.Reg5.lean ====
/-
  Kernel region 5 as ONE function of the arrays it is entered with: every aggregated row plus the bias row, clamped at zero.

  The region walks 10 blocks of 10000 rows.  Point `t` reads rows `10000·t … 10000·t + 9999` of its first
  operand and the one bias row, and writes the same rows of the output; the blocks are disjoint and
  fill the output, so the array the region leaves is the whole-array function `addBiasRelu 100000 128` of the two operand arrays
  as the region found them, whatever those are.
-/
import proofs.«132683_j73830487818377_1_alg».proof.Proof.Gen.KernelIdeal.Frame
import proofs.«132683_j73830487818377_1_alg».proof.Proof.PayPointwise
import proofs.«132683_j73830487818377_1_alg».proof.Proof.GcnSpec

set_option maxRecDepth 16384

noncomputable section

namespace Cert.KernelIdeal.Reg5

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt_N (t : Fin cfg5.N) : t.val < 10 := lt_of_lt_of_eq t.isLt N_5

/-- Row `r` of point `t`'s block is row `10000·t + r` of the array. -/
def row (t : Fin cfg5.N) (r : Fin 10000) : Fin 100000 := ⟨t.val * 10000 + r.val, by have := lt_N t; have := r.isLt; omega⟩

/-- The first operand's block at point `t`, read at `(r, k)`. -/
theorem read0 (c : Dev nD) (t : Fin cfg5.N) (r : Fin 10000) (k : Fin 128) :
    iblk5 V c 0 t (ix2 r k) = V c main_v60 (ix2 (row t r) k) := by
  obtain ⟨e0, e1, e2, e3, e4, e5⟩ := idx_facts t
  show V c main_v60 (((cfg5.win 0).blk t).view.emb (ix2 r k)) = V c main_v60 (ix2 (row t r) k)
  refine congrArg (V c main_v60) (funext fun a => Fin.ext ?_)
  match a with
  | ⟨0, _⟩ => show win5_0.index t (0 : Fin 2) * 10000 + 1 * r.val = t.val * 10000 + r.val; omega
  | ⟨1, _⟩ => show win5_0.index t (1 : Fin 2) * 128 + 1 * k.val = k.val; omega

/-- The bias row's one block is the whole row. -/
theorem read1 (c : Dev nD) (t : Fin cfg5.N) (q : Fin 128) :
    iblk5 V c 1 t (ix2 (0 : Fin 1) q) = V c main_v61 (ix2 (0 : Fin 1) q) := by
  obtain ⟨e0, e1, e2, e3, e4, e5⟩ := idx_facts t
  show V c main_v61 (((cfg5.win 1).blk t).view.emb (ix2 (0 : Fin 1) q)) = V c main_v61 (ix2 (0 : Fin 1) q)
  refine congrArg (V c main_v61) (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

/-- Where the output's block at point `t` sits in the output array. -/
theorem emb_out (t : Fin cfg5.N) (r : Fin 10000) (q : Fin 128) :
    ((cfg5.win 2).blk t).view.emb (ix2 r q) = ix2 (row t r) q := by
  obtain ⟨e0, e1, e2, e3, e4, e5⟩ := idx_facts t
  refine funext fun a => Fin.ext ?_
  match a with
  | ⟨0, _⟩ => show win5_2.index t (0 : Fin 2) * 10000 + 1 * r.val = t.val * 10000 + r.val; omega
  | ⟨1, _⟩ => show win5_2.index t (1 : Fin 2) * 128 + 1 * q.val = q.val; omega

/-- WHAT POINT `t` WRITES BACK is block `t` of `addBiasRelu 100000 128` of the operand arrays as the region finds them. -/
theorem flushed_eq (c : Dev nD) (t : Fin cfg5.N) :
    (dat5 V c).flushed 2 t
      = ((cfg5.win 2).blk t).view.read (Elt Ideal) (addBiasRelu 100000 128 (V c main_v60) (V c main_v61)) := by
  show (cfg5.win 2).cut (grid5.coords t) ((dat5 V c).after 2 t) = _
  rw [after5_2]
  unfold out5_2
  rw [View.canon_unit_zero hz]
  simp only [View.ld_unit_zero (S := S10000x128) hz, View.ld_unit_zero (S := S1x128) hz]
  funext j
  obtain ⟨r, q, rfl⟩ : ∃ (r : Fin 10000) (q : Fin 128), j = ix2 r q := ⟨j 0, j 1, eq_ix2 j⟩
  show k5_pay1 (iblk5 V c 0 t) (iblk5 V c 1 t) (ix2 r q)
    = addBiasRelu 100000 128 (V c main_v60) (V c main_v61) (((cfg5.win 2).blk t).view.emb (ix2 r q))
  refine (Pay.k5_pay_apply (iblk5 V c 0 t) (iblk5 V c 1 t) r q).trans ?_
  rw [emb_out t r q]
  rw [addBiasRelu_apply, read0 V c t r q, read1 V c t q]

/-- An index of the output array is in point `t`'s block iff each coordinate is in the block's range on its axis. -/
theorem mem_blk (t : Fin cfg5.N) (i : S100000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v62).slice (win5_2.rect t)).set ↔ _
  rw [View.set_slice_whole, Rect.mem_set_unit]
  exact Iff.rfl

/-- Every row of the output lies in the block of the point `row / 10000`. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 128 ≤ (i 1).val ∧ (i 1).val < win5_2.index t (1 : Fin 2) * 128 + 128; omega

/-- THE ARRAY THE REGION LEAVES: `addBiasRelu 100000 128` of its two operand arrays as entered. -/
theorem final (c : Dev nD) :
    (dat5 V c).arrAt 2 cfg5.N = addBiasRelu 100000 128 (V c main_v60) (V c main_v61) :=
  (dat5 V c).arrAt_eq_of_cover 2 (addBiasRelu 100000 128 (V c main_v60) (V c main_v61)) (fun t _ => flushed_eq V c t) cover

end Cert.KernelIdeal.Reg5

end
-- ==== Proof.Reg6.lean ====
/-
  Kernel region 6 as ONE function of the arrays it is entered with: the product of the node features with the weight matrix.

  The region walks 10 blocks of 10000 rows.  Point `t` reads rows `10000·t … 10000·t + 9999` of its first
  operand and the whole weight matrix, and writes the same rows of the output; the blocks are disjoint and
  fill the output, so the array the region leaves is the whole-array function `dense 100000 64` of the two operand arrays
  as the region found them, whatever those are.
-/
import proofs.«132683_j73830487818377_1_alg».proof.Proof.Gen.KernelIdeal.Frame
import proofs.«132683_j73830487818377_1_alg».proof.Proof.PayLin
import proofs.«132683_j73830487818377_1_alg».proof.Proof.GcnSpec

set_option maxRecDepth 16384

noncomputable section

namespace Cert.KernelIdeal.Reg6

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem lt_N (t : Fin cfg6.N) : t.val < 10 := lt_of_lt_of_eq t.isLt N_6

/-- Row `r` of point `t`'s block is row `10000·t + r` of the array. -/
def row (t : Fin cfg6.N) (r : Fin 10000) : Fin 100000 := ⟨t.val * 10000 + r.val, by have := lt_N t; have := r.isLt; omega⟩

/-- The first operand's block at point `t`, read at `(r, k)`. -/
theorem read0 (c : Dev nD) (t : Fin cfg6.N) (r : Fin 10000) (k : Fin 128) :
    iblk6 V c 0 t (ix2 r k) = V c main_v62 (ix2 (row t r) k) := by
  obtain ⟨e0, e1, e2, e3, e4, e5⟩ := idx_facts t
  show V c main_v62 (((cfg6.win 0).blk t).view.emb (ix2 r k)) = V c main_v62 (ix2 (row t r) k)
  refine congrArg (V c main_v62) (funext fun a => Fin.ext ?_)
  match a with
  | ⟨0, _⟩ => show win6_0.index t (0 : Fin 2) * 10000 + 1 * r.val = t.val * 10000 + r.val; omega
  | ⟨1, _⟩ => show win6_0.index t (1 : Fin 2) * 128 + 1 * k.val = k.val; omega

/-- The weight matrix's one block is the whole matrix. -/
theorem read1 (c : Dev nD) (t : Fin cfg6.N) (k : Fin 128) (q : Fin 64) :
    iblk6 V c 1 t (ix2 k q) = V c main_arg7 (ix2 k q) := by
  obtain ⟨e0, e1, e2, e3, e4, e5⟩ := idx_facts t
  show V c main_arg7 (((cfg6.win 1).blk t).view.emb (ix2 k q)) = V c main_arg7 (ix2 k q)
  refine congrArg (V c main_arg7) (funext fun a => Fin.ext ?_)
  match a with
  | ⟨0, _⟩ => show win6_1.index t (0 : Fin 2) * 128 + 1 * k.val = k.val; omega
  | ⟨1, _⟩ => show win6_1.index t (1 : Fin 2) * 64 + 1 * q.val = q.val; omega

/-- Where the output's block at point `t` sits in the output array. -/
theorem emb_out (t : Fin cfg6.N) (r : Fin 10000) (q : Fin 64) :
    ((cfg6.win 2).blk t).view.emb (ix2 r q) = ix2 (row t r) q := by
  obtain ⟨e0, e1, e2, e3, e4, e5⟩ := idx_facts t
  refine funext fun a => Fin.ext ?_
  match a with
  | ⟨0, _⟩ => show win6_2.index t (0 : Fin 2) * 10000 + 1 * r.val = t.val * 10000 + r.val; omega
  | ⟨1, _⟩ => show win6_2.index t (1 : Fin 2) * 64 + 1 * q.val = q.val; omega

/-- WHAT POINT `t` WRITES BACK is block `t` of `dense 100000 64` of the operand arrays as the region finds them. -/
theorem flushed_eq (c : Dev nD) (t : Fin cfg6.N) :
    (dat6 V c).flushed 2 t
      = ((cfg6.win 2).blk t).view.read (Elt Ideal) (dense 100000 64 (V c main_v62) (V c main_arg7)) := by
  show (cfg6.win 2).cut (grid6.coords t) ((dat6 V c).after 2 t) = _
  rw [after6_2]
  unfold out6_2
  rw [View.canon_unit_zero hz]
  simp only [View.ld_unit_zero (S := S10000x128) hz, View.ld_unit_zero (S := S128x64) hz]
  funext j
  obtain ⟨r, q, rfl⟩ : ∃ (r : Fin 10000) (q : Fin 64), j = ix2 r q := ⟨j 0, j 1, eq_ix2 j⟩
  show k6_pay1 (iblk6 V c 0 t) (iblk6 V c 1 t) (ix2 r q)
    = dense 100000 64 (V c main_v62) (V c main_arg7) (((cfg6.win 2).blk t).view.emb (ix2 r q))
  refine (Pay.k6_pay_apply (iblk6 V c 0 t) (iblk6 V c 1 t) r q).trans ?_
  rw [emb_out t r q]
  rw [dense_apply]
  refine Finset.sum_congr rfl fun k _ => ?_
  rw [read0 V c t r k, read1 V c t k q]

/-- An index of the output array is in point `t`'s block iff each coordinate is in the block's range on its axis. -/
theorem mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v63).slice (win6_2.rect t)).set ↔ _
  rw [View.set_slice_whole, Rect.mem_set_unit]
  exact Iff.rfl

/-- Every row of the output lies in the block of the point `row / 10000`. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨e0, e1, e2, e3, e4, e5⟩ := idx_facts t
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- THE ARRAY THE REGION LEAVES: `dense 100000 64` of its two operand arrays as entered. -/
theorem final (c : Dev nD) :
    (dat6 V c).arrAt 2 cfg6.N = dense 100000 64 (V c main_v62) (V c main_arg7) :=
  (dat6 V c).arrAt_eq_of_cover 2 (dense 100000 64 (V c main_v62) (V c main_arg7)) (fun t _ => flushed_eq V c t) cover

end Cert.KernelIdeal.Reg6

end
-- ==== Proof.Reg7.lean ====
/-
  Kernel region 7 as ONE function of the arrays it is entered with: every gathered row times its edge's coefficient.

  The region walks 160 blocks of 10000 rows.  Point `t` reads rows `10000·t … 10000·t + 9999` of its first
  operand and of the coefficient column, and writes the same rows of the output; the blocks are disjoint and
  fill the output, so the array the region leaves is the whole-array function `scaleRows 1600000 64` of the two operand arrays
  as the region found them, whatever those are.
-/
import proofs.«132683_j73830487818377_1_alg».proof.Proof.Gen.KernelIdeal.Frame
import proofs.«132683_j73830487818377_1_alg».proof.Proof.PayPointwise
import proofs.«132683_j73830487818377_1_alg».proof.Proof.GcnSpec

set_option maxRecDepth 16384

noncomputable section

namespace Cert.KernelIdeal.Reg7

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

theorem lt_N (t : Fin cfg7.N) : t.val < 160 := lt_of_lt_of_eq t.isLt N_7

/-- Row `r` of point `t`'s block is row `10000·t + r` of the array. -/
def row (t : Fin cfg7.N) (r : Fin 10000) : Fin 1600000 := ⟨t.val * 10000 + r.val, by have := lt_N t; have := r.isLt; omega⟩

/-- The first operand's block at point `t`, read at `(r, k)`. -/
theorem read0 (c : Dev nD) (t : Fin cfg7.N) (r : Fin 10000) (k : Fin 64) :
    iblk7 V c 0 t (ix2 r k) = V c main_v70 (ix2 (row t r) k) := by
  obtain ⟨e0, e1, e2, e3, e4, e5⟩ := idx_facts t
  show V c main_v70 (((cfg7.win 0).blk t).view.emb (ix2 r k)) = V c main_v70 (ix2 (row t r) k)
  refine congrArg (V c main_v70) (funext fun a => Fin.ext ?_)
  match a with
  | ⟨0, _⟩ => show win7_0.index t (0 : Fin 2) * 10000 + 1 * r.val = t.val * 10000 + r.val; omega
  | ⟨1, _⟩ => show win7_0.index t (1 : Fin 2) * 64 + 1 * k.val = k.val; omega

/-- The coefficient column's block at point `t`, read at row `r`. -/
theorem read1 (c : Dev nD) (t : Fin cfg7.N) (r : Fin 10000) :
    iblk7 V c 1 t (ix2 r (0 : Fin 1)) = V c main_v71 (ix2 (row t r) (0 : Fin 1)) := by
  obtain ⟨e0, e1, e2, e3, e4, e5⟩ := idx_facts t
  show V c main_v71 (((cfg7.win 1).blk t).view.emb (ix2 r (0 : Fin 1))) = V c main_v71 (ix2 (row t r) (0 : Fin 1))
  refine congrArg (V c main_v71) (funext fun a => Fin.ext ?_)
  match a with
  | ⟨0, _⟩ => show win7_1.index t (0 : Fin 2) * 10000 + 1 * r.val = t.val * 10000 + r.val; omega
  | ⟨1, _⟩ => show win7_1.index t (1 : Fin 2) * 1 + 1 * 0 = 0; omega

/-- Where the output's block at point `t` sits in the output array. -/
theorem emb_out (t : Fin cfg7.N) (r : Fin 10000) (q : Fin 64) :
    ((cfg7.win 2).blk t).view.emb (ix2 r q) = ix2 (row t r) q := by
  obtain ⟨e0, e1, e2, e3, e4, e5⟩ := idx_facts t
  refine funext fun a => Fin.ext ?_
  match a with
  | ⟨0, _⟩ => show win7_2.index t (0 : Fin 2) * 10000 + 1 * r.val = t.val * 10000 + r.val; omega
  | ⟨1, _⟩ => show win7_2.index t (1 : Fin 2) * 64 + 1 * q.val = q.val; omega

/-- WHAT POINT `t` WRITES BACK is block `t` of `scaleRows 1600000 64` of the operand arrays as the region finds them. -/
theorem flushed_eq (c : Dev nD) (t : Fin cfg7.N) :
    (dat7 V c).flushed 2 t
      = ((cfg7.win 2).blk t).view.read (Elt Ideal) (scaleRows 1600000 64 (V c main_v70) (V c main_v71)) := by
  show (cfg7.win 2).cut (grid7.coords t) ((dat7 V c).after 2 t) = _
  rw [after7_2]
  unfold out7_2
  rw [View.canon_unit_zero hz]
  simp only [View.ld_unit_zero (S := S10000x64) hz, View.ld_unit_zero (S := S10000x1) hz]
  funext j
  obtain ⟨r, q, rfl⟩ : ∃ (r : Fin 10000) (q : Fin 64), j = ix2 r q := ⟨j 0, j 1, eq_ix2 j⟩
  show k7_pay1 (iblk7 V c 0 t) (iblk7 V c 1 t) (ix2 r q)
    = scaleRows 1600000 64 (V c main_v70) (V c main_v71) (((cfg7.win 2).blk t).view.emb (ix2 r q))
  refine (Pay.k7_pay_apply (iblk7 V c 0 t) (iblk7 V c 1 t) r q).trans ?_
  rw [emb_out t r q]
  rw [scaleRows_apply, read0 V c t r q, read1 V c t r]

/-- An index of the output array is in point `t`'s block iff each coordinate is in the block's range on its axis. -/
theorem mem_blk (t : Fin cfg7.N) (i : S1600000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v72).slice (win7_2.rect t)).set ↔ _
  rw [View.set_slice_whole, Rect.mem_set_unit]
  exact Iff.rfl

/-- Every row of the output lies in the block of the point `row / 10000`. -/
theorem cover (i : S1600000x64.Idx) : ∃ t : Fin cfg7.N, (cfg7.win 2).flush t = true ∧ i ∈ ((cfg7.win 2).blk t).view.set := by
  have hi0 : (i 0).val < 1600000 := (i 0).isLt
  have hi1 : (i 1).val < 64 := (i 1).isLt
  have hN : cfg7.N = 160 := N_7
  obtain ⟨t, ht⟩ : ∃ t : Fin cfg7.N, t.val = (i 0).val / 10000 := ⟨⟨(i 0).val / 10000, by rw [hN]; omega⟩, rfl⟩
  obtain ⟨e0, e1, e2, e3, e4, e5⟩ := idx_facts t
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- THE ARRAY THE REGION LEAVES: `scaleRows 1600000 64` of its two operand arrays as entered. -/
theorem final (c : Dev nD) :
    (dat7 V c).arrAt 2 cfg7.N = scaleRows 1600000 64 (V c main_v70) (V c main_v71) :=
  (dat7 V c).arrAt_eq_of_cover 2 (scaleRows 1600000 64 (V c main_v70) (V c main_v71)) (fun t _ => flushed_eq V c t) cover

end Cert.KernelIdeal.Reg7

end
-- ==== Proof.Reg8.lean ====
/-
  Kernel region 8 as ONE function of the arrays it is entered with: every aggregated row plus the bias row.

  The region walks 10 blocks of 10000 rows.  Point `t` reads rows `10000·t … 10000·t + 9999` of its first
  operand and the one bias row, and writes the same rows of the output; the blocks are disjoint and
  fill the output, so the array the region leaves is the whole-array function `addBias 100000 64` of the two operand arrays
  as the region found them, whatever those are.
-/
import proofs.«132683_j73830487818377_1_alg».proof.Proof.Gen.KernelIdeal.Frame
import proofs.«132683_j73830487818377_1_alg».proof.Proof.PayPointwise
import proofs.«132683_j73830487818377_1_alg».proof.Proof.GcnSpec

set_option maxRecDepth 16384

noncomputable section

namespace Cert.KernelIdeal.Reg8

open Cert.KernelIdeal Cert.KernelIdeal.Gen Idealize.ShloMosaic Idealize.ShloMosaic.TcCoe Idealize.ShloMosaic.ValueIdx
open Idealize.SL.Sem Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the others at `(0, 0)`. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

theorem lt_N (t : Fin cfg8.N) : t.val < 10 := lt_of_lt_of_eq t.isLt N_8

/-- Row `r` of point `t`'s block is row `10000·t + r` of the array. -/
def row (t : Fin cfg8.N) (r : Fin 10000) : Fin 100000 := ⟨t.val * 10000 + r.val, by have := lt_N t; have := r.isLt; omega⟩

/-- The first operand's block at point `t`, read at `(r, k)`. -/
theorem read0 (c : Dev nD) (t : Fin cfg8.N) (r : Fin 10000) (k : Fin 64) :
    iblk8 V c 0 t (ix2 r k) = V c main_v75 (ix2 (row t r) k) := by
  obtain ⟨e0, e1, e2, e3, e4, e5⟩ := idx_facts t
  show V c main_v75 (((cfg8.win 0).blk t).view.emb (ix2 r k)) = V c main_v75 (ix2 (row t r) k)
  refine congrArg (V c main_v75) (funext fun a => Fin.ext ?_)
  match a with
  | ⟨0, _⟩ => show win8_0.index t (0 : Fin 2) * 10000 + 1 * r.val = t.val * 10000 + r.val; omega
  | ⟨1, _⟩ => show win8_0.index t (1 : Fin 2) * 64 + 1 * k.val = k.val; omega

/-- The bias row's one block is the whole row. -/
theorem read1 (c : Dev nD) (t : Fin cfg8.N) (q : Fin 64) :
    iblk8 V c 1 t (ix2 (0 : Fin 1) q) = V c main_v76 (ix2 (0 : Fin 1) q) := by
  obtain ⟨e0, e1, e2, e3, e4, e5⟩ := idx_facts t
  show V c main_v76 (((cfg8.win 1).blk t).view.emb (ix2 (0 : Fin 1) q)) = V c main_v76 (ix2 (0 : Fin 1) q)
  refine congrArg (V c main_v76) (funext fun a => Fin.ext ?_)
  match a with
  | ⟨0, _⟩ => show win8_1.index t (0 : Fin 2) * 1 + 1 * 0 = 0; omega
  | ⟨1, _⟩ => show win8_1.index t (1 : Fin 2) * 64 + 1 * q.val = q.val; omega

/-- Where the output's block at point `t` sits in the output array. -/
theorem emb_out (t : Fin cfg8.N) (r : Fin 10000) (q : Fin 64) :
    ((cfg8.win 2).blk t).view.emb (ix2 r q) = ix2 (row t r) q := by
  obtain ⟨e0, e1, e2, e3, e4, e5⟩ := idx_facts t
  refine funext fun a => Fin.ext ?_
  match a with
  | ⟨0, _⟩ => show win8_2.index t (0 : Fin 2) * 10000 + 1 * r.val = t.val * 10000 + r.val; omega
  | ⟨1, _⟩ => show win8_2.index t (1 : Fin 2) * 64 + 1 * q.val = q.val; omega

/-- WHAT POINT `t` WRITES BACK is block `t` of `addBias 100000 64` of the operand arrays as the region finds them. -/
theorem flushed_eq (c : Dev nD) (t : Fin cfg8.N) :
    (dat8 V c).flushed 2 t
      = ((cfg8.win 2).blk t).view.read (Elt Ideal) (addBias 100000 64 (V c main_v75) (V c main_v76)) := by
  show (cfg8.win 2).cut (grid8.coords t) ((dat8 V c).after 2 t) = _
  rw [after8_2]
  unfold out8_2
  rw [View.canon_unit_zero hz]
  simp only [View.ld_unit_zero (S := S10000x64) hz, View.ld_unit_zero (S := S1x64) hz]
  funext j
  obtain ⟨r, q, rfl⟩ : ∃ (r : Fin 10000) (q : Fin 64), j = ix2 r q := ⟨j 0, j 1, eq_ix2 j⟩
  show k8_pay1 (iblk8 V c 0 t) (iblk8 V c 1 t) (ix2 r q)
    = addBias 100000 64 (V c main_v75) (V c main_v76) (((cfg8.win 2).blk t).view.emb (ix2 r q))
  refine (Pay.k8_pay_apply (iblk8 V c 0 t) (iblk8 V c 1 t) r q).trans ?_
  rw [emb_out t r q]
  rw [addBias_apply, read0 V c t r q, read1 V c t q]

/-- An index of the output array is in point `t`'s block iff each coordinate is in the block's range on its axis. -/
theorem mem_blk (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v77).slice (win8_2.rect t)).set ↔ _
  rw [View.set_slice_whole, Rect.mem_set_unit]
  exact Iff.rfl

/-- Every row of the output lies in the block of the point `row / 10000`. -/
theorem cover (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have hN : cfg8.N = 10 := N_8
  obtain ⟨t, ht⟩ : ∃ t : Fin cfg8.N, t.val = (i 0).val / 10000 := ⟨⟨(i 0).val / 10000, by rw [hN]; omega⟩, rfl⟩
  obtain ⟨e0, e1, e2, e3, e4, e5⟩ := idx_facts t
  refine ⟨t, flush8_2 t, ?_⟩
  rw [mem_blk]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- THE ARRAY THE REGION LEAVES: `addBias 100000 64` of its two operand arrays as entered. -/
theorem final (c : Dev nD) :
    (dat8 V c).arrAt 2 cfg8.N = addBias 100000 64 (V c main_v75) (V c main_v76) :=
  (dat8 V c).arrAt_eq_of_cover 2 (addBias 100000 64 (V c main_v75) (V c main_v76)) (fun t _ => flushed_eq V c t) cover

end Cert.KernelIdeal.Reg8

end
-- ==== Proof.Chain.lean ====
/-
  The kernel program's fold of buffer contents, boundary by boundary, against the reference's stages.

  Both programs compute the edge coefficients and the wrapped source indices by the same host operations of the
  same arguments; a layer's gather and its segment sum are again the same host operations on both sides.  So at
  every boundary of the kernel program each live buffer holds exactly one of the reference's stage values: the host
  stretches are read off operation by operation, and each kernel region contributes its whole-array function
  (`dense`, `scaleRows`, `addBiasRelu`, `addBias`), which is the reference's corresponding dense operation.
  Buffers that no later operation or region writes are carried along unchanged.
-/
import proofs.«132683_j73830487818377_1_alg».proof.Proof.Gen.KernelIdeal.Frame
import proofs.«132683_j73830487818377_1_alg».proof.Proof.Gen.ReferenceIdeal.Read
import proofs.«132683_j73830487818377_1_alg».proof.Proof.RefOps
import proofs.«132683_j73830487818377_1_alg».proof.Proof.Reg0
import proofs.«132683_j73830487818377_1_alg».proof.Proof.Reg1
import proofs.«132683_j73830487818377_1_alg».proof.Proof.Reg2
import proofs.«132683_j73830487818377_1_alg».proof.Proof.Reg3
import proofs.«132683_j73830487818377_1_alg».proof.Proof.Reg4
import proofs.«132683_j73830487818377_1_alg».proof.Proof.Reg5
import proofs.«132683_j73830487818377_1_alg».proof.Proof.Reg6
import proofs.«132683_j73830487818377_1_alg».proof.Proof.Reg7
import proofs.«132683_j73830487818377_1_alg».proof.Proof.Reg8
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Before the first region: the arguments, the raw endpoints, the edge coefficients -/

theorem w3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  dsimp only [hostOps0, hostOps0_1, hostOps0_2]
  after_results_simp

theorem w3_arg3 : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_simp

theorem w3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  dsimp only [hostOps0, hostOps0_1, hostOps0_2]
  after_results_simp

theorem w3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  dsimp only [hostOps0, hostOps0_1, hostOps0_2]
  after_results_simp

theorem w3_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  dsimp only [hostOps0, hostOps0_1, hostOps0_2]
  after_results_simp

theorem w3_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  dsimp only [hostOps0, hostOps0_1, hostOps0_2]
  after_results_simp

theorem w3_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  dsimp only [hostOps0, hostOps0_1, hostOps0_2]
  after_results_simp

theorem w3_v1 : W3 m ρ c (Proc.devRef .tc main_v1) = Cert.ReferenceIdeal.Read.val_main_v1 (F := Ideal) (m ((c.tc : Thread nD τ).loc main_arg1)) := by
  show StableHlo.after hostOps0_2 (StableHlo.after hostOps0_1 (StableHlo.after hostOps0 (W0 m ρ c))) (Proc.devRef .tc main_v1) = _
  dsimp only [hostOps0, hostOps0_1, hostOps0_2]
  after_results_simp
  rfl

theorem w3_v3 : W3 m ρ c (Proc.devRef .tc main_v3) = Cert.ReferenceIdeal.Read.val_main_v3 (F := Ideal) (m ((c.tc : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl

/-! The coefficients pass through `jnp.where`, an outlined function; that stretch is read on its own, from what
    the stretch before it left, so that each comparison with the reference's stage stays small. -/

theorem w1_v12 : W1 m ρ c (Proc.devRef .tc main_v12) = Cert.ReferenceIdeal.Read.val_main_v12 (F := Ideal) (m ((c.tc : Thread nD τ).loc main_arg1)) (m ((c.tc : Thread nD τ).loc main_arg2)) := by
  show StableHlo.after hostOps0 (W0 m ρ c) (Proc.devRef .tc main_v12) = _
  dsimp only [hostOps0]
  after_results_simp
  rfl

theorem w1_v15 : W1 m ρ c (Proc.devRef .tc main_v15) = Cert.ReferenceIdeal.Read.val_main_v15 (F := Ideal) (m ((c.tc : Thread nD τ).loc main_arg1)) (m ((c.tc : Thread nD τ).loc main_arg2)) := by
  show StableHlo.after hostOps0 (W0 m ρ c) (Proc.devRef .tc main_v15) = _
  dsimp only [hostOps0]
  after_results_simp
  rfl

theorem w1_cst_2 : W1 m ρ c (Proc.devRef .tc main_cst_2) = Cert.ReferenceIdeal.Read.val_main_cst_2 (F := Ideal) := by
  show StableHlo.after hostOps0 (W0 m ρ c) (Proc.devRef .tc main_cst_2) = _
  dsimp only [hostOps0]
  after_results_simp
  rfl

/-- The outlined `jnp.where` (a scalar zero broadcast over the nodes, selected where the in-degree is not
    positive) spelt over the buffers themselves: its operations' transports along the buffers' types are the
    identity, the types being the values' own. -/
abbrev whereOps : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v12 main_v15 main_call0_v1 main_v16 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

theorem where_eq : (hostOps0_1 : List (HloOp τ sig (Elt Ideal))) = whereOps := rfl

/-- The inverse square root of the in-degree where it is positive, zero elsewhere. -/
theorem w2_v16 : W2 m ρ c (Proc.devRef .tc main_v16) = Cert.ReferenceIdeal.Read.val_main_v16 (F := Ideal) (m ((c.tc : Thread nD τ).loc main_arg1)) (m ((c.tc : Thread nD τ).loc main_arg2)) := by
  have h12 := w1_v12 m ρ c
  have h15 := w1_v15 m ρ c
  have hc := w1_cst_2 m ρ c
  show StableHlo.after hostOps0_1 (W1 m ρ c) (Proc.devRef .tc main_v16) = _
  generalize W1 m ρ c = F at h12 h15 hc ⊢
  rw [where_eq]
  dsimp only [whereOps]
  after_results_simp
  rw [h12, h15, hc]
  rfl

theorem w2_v5 : W2 m ρ c (Proc.devRef .tc main_v5) = Cert.ReferenceIdeal.Read.val_main_v5 (F := Ideal) (m ((c.tc : Thread nD τ).loc main_arg1)) := by
  show StableHlo.after hostOps0_1 (StableHlo.after hostOps0 (W0 m ρ c)) (Proc.devRef .tc main_v5) = _
  dsimp only [hostOps0, hostOps0_1]
  after_results_simp
  rfl

theorem w2_v7 : W2 m ρ c (Proc.devRef .tc main_v7) = Cert.ReferenceIdeal.Read.val_main_v7 (F := Ideal) (m ((c.tc : Thread nD τ).loc main_arg1)) := by
  show StableHlo.after hostOps0_1 (StableHlo.after hostOps0 (W0 m ρ c)) (Proc.devRef .tc main_v7) = _
  dsimp only [hostOps0, hostOps0_1]
  after_results_simp
  rfl

theorem w2_arg2 : W2 m ρ c (Proc.devRef .tc main_arg2) = (m ((c.tc : Thread nD τ).loc main_arg2)) := by
  show StableHlo.after hostOps0_1 (StableHlo.after hostOps0 (W0 m ρ c)) (Proc.devRef .tc main_arg2) = _
  dsimp only [hostOps0, hostOps0_1]
  after_results_simp

/-- The edge coefficients: the two endpoints' inverse square roots around the edge weight. -/
theorem w3_v32 : W3 m ρ c (Proc.devRef .tc main_v32) = Cert.ReferenceIdeal.Read.val_main_v32 (F := Ideal) (m ((c.tc : Thread nD τ).loc main_arg1)) (m ((c.tc : Thread nD τ).loc main_arg2)) := by
  have h16 := w2_v16 m ρ c
  have h5 := w2_v5 m ρ c
  have h7 := w2_v7 m ρ c
  have h2 := w2_arg2 m ρ c
  show StableHlo.after hostOps0_2 (W2 m ρ c) (Proc.devRef .tc main_v32) = _
  generalize W2 m ρ c = F at h16 h5 h7 h2 ⊢
  dsimp only [hostOps0_2]
  after_results_simp
  rw [h16, h5, h7, h2]
  rfl

/-! ## Layer 1 -/

theorem w4_v33 : W4 m ρ c (Proc.devRef .tc main_v33) = Cert.ReferenceIdeal.Read.val_main_v33 (F := Ideal) (m ((c.tc : Thread nD τ).loc main_arg0)) (m ((c.tc : Thread nD τ).loc main_arg3)) := by
  refine (W4_arr m ρ c 2).trans ((Reg0.final (V3 m ρ) c).trans ?_)
  show Cert.GcnSpec.dense 100000 128 (W3 m ρ c (Proc.devRef .tc main_arg0)) (W3 m ρ c (Proc.devRef .tc main_arg3)) = _
  rw [w3_arg0 m ρ c, w3_arg3 m ρ c]
  exact (Cert.ReferenceIdeal.RefOps.dot128_eq _ _).symm

theorem keep_v1_4_3 : W4 m ρ c (Proc.devRef .tc main_v1) = W3 m ρ c (Proc.devRef .tc main_v1) :=
  calc W4 m ρ c (Proc.devRef .tc main_v1)
    _ = W3 m ρ c (Proc.devRef .tc main_v1) := W4_of_ne m ρ c main_v1 (by decide)

theorem keep_v32_4_3 : W4 m ρ c (Proc.devRef .tc main_v32) = W3 m ρ c (Proc.devRef .tc main_v32) :=
  calc W4 m ρ c (Proc.devRef .tc main_v32)
    _ = W3 m ρ c (Proc.devRef .tc main_v32) := W4_of_ne m ρ c main_v32 (by decide)

set_option maxHeartbeats 2000000 in
theorem w5_v40 : W5 m ρ c (Proc.devRef .tc main_v40) = Cert.ReferenceIdeal.Read.val_main_v41 (F := Ideal) (m ((c.tc : Thread nD τ).loc main_arg0)) (m ((c.tc : Thread nD τ).loc main_arg1)) (m ((c.tc : Thread nD τ).loc main_arg3)) := by
  show StableHlo.after hostOps1 (W4 m ρ c) (Proc.devRef .tc main_v40) = _
  dsimp only [hostOps1]
  after_results
  rw [w4_v33 m ρ c, keep_v1_4_3 m ρ c, w3_v1 m ρ c]
  rfl

set_option maxHeartbeats 2000000 in
theorem w5_v41 : W5 m ρ c (Proc.devRef .tc main_v41) = (shapeCast S1600000x1 (Cert.ReferenceIdeal.Read.val_main_v32 (F := Ideal) (m ((c.tc : Thread nD τ).loc main_arg1)) (m ((c.tc : Thread nD τ).loc main_arg2))) shapeCasts_S1600000_S1600000x1) := by
  show StableHlo.after hostOps1 (W4 m ρ c) (Proc.devRef .tc main_v41) = _
  dsimp only [hostOps1]
  after_results
  rw [keep_v32_4_3 m ρ c, w3_v32 m ρ c]
  rfl

theorem w6_v42 : W6 m ρ c (Proc.devRef .tc main_v42) = Cert.ReferenceIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((Reg1.final (V5 m ρ) c).trans ?_)
  show Cert.GcnSpec.scaleRows 1600000 128 (W5 m ρ c (Proc.devRef .tc main_v40)) (W5 m ρ c (Proc.devRef .tc main_v41)) = _
  rw [w5_v40 m ρ c, w5_v41 m ρ c]
  exact Cert.ReferenceIdeal.RefOps.scale128_eq _ _ _

theorem keep_v3_6_3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          dsimp only [hostOps1]
          after_results
    _ = W3 m ρ c (Proc.devRef .tc main_v3) := W4_of_ne m ρ c main_v3 (by decide)

theorem keep_arg4_6_3 : W6 m ρ c (Proc.devRef .tc main_arg4) = W3 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by
          show StableHlo.after hostOps1 (W4 m ρ c) (Proc.devRef .tc main_arg4) = _
          dsimp only [hostOps1]
          after_results
    _ = W3 m ρ c (Proc.devRef .tc main_arg4) := W4_of_ne m ρ c main_arg4 (by decide)

set_option maxHeartbeats 2000000 in
theorem w7_v45 : W7 m ρ c (Proc.devRef .tc main_v45) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps2 (W6 m ρ c) (Proc.devRef .tc main_v45) = _
  dsimp only [hostOps2]
  after_results
  rw [w6_v42 m ρ c, keep_v3_6_3 m ρ c, w3_v3 m ρ c]
  rfl

set_option maxHeartbeats 2000000 in
theorem w7_v46 : W7 m ρ c (Proc.devRef .tc main_v46) = (shapeCast S1x128 (m ((c.tc : Thread nD τ).loc main_arg4)) shapeCasts_S128_S1x128) := by
  show StableHlo.after hostOps2 (W6 m ρ c) (Proc.devRef .tc main_v46) = _
  dsimp only [hostOps2]
  after_results
  rw [keep_arg4_6_3 m ρ c, w3_arg4 m ρ c]
  rfl

theorem w8_v47 : W8 m ρ c (Proc.devRef .tc main_v47) = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 2).trans ((Reg2.final (V7 m ρ) c).trans ?_)
  show Cert.GcnSpec.addBiasRelu 100000 128 (W7 m ρ c (Proc.devRef .tc main_v45)) (W7 m ρ c (Proc.devRef .tc main_v46)) = _
  rw [w7_v45 m ρ c, w7_v46 m ρ c]
  exact Cert.ReferenceIdeal.RefOps.bias128_eq _ _ _

theorem keep_arg5_8_3 : W8 m ρ c (Proc.devRef .tc main_arg5) = W3 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := by
          show StableHlo.after hostOps2 (W6 m ρ c) (Proc.devRef .tc main_arg5) = _
          dsimp only [hostOps2]
          after_results
    _ = W5 m ρ c (Proc.devRef .tc main_arg5) := W6_of_ne m ρ c main_arg5 (by decide)
    _ = W4 m ρ c (Proc.devRef .tc main_arg5) := by
          show StableHlo.after hostOps1 (W4 m ρ c) (Proc.devRef .tc main_arg5) = _
          dsimp only [hostOps1]
          after_results
    _ = W3 m ρ c (Proc.devRef .tc main_arg5) := W4_of_ne m ρ c main_arg5 (by decide)

/-! ## Layer 2 -/

theorem w9_v48 : W9 m ρ c (Proc.devRef .tc main_v48) = Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((Reg3.final (V8 m ρ) c).trans ?_)
  show Cert.GcnSpec.dense 100000 128 (W8 m ρ c (Proc.devRef .tc main_v47)) (W8 m ρ c (Proc.devRef .tc main_arg5)) = _
  rw [w8_v47 m ρ c, keep_arg5_8_3 m ρ c, w3_arg5 m ρ c]
  exact (Cert.ReferenceIdeal.RefOps.dot128_eq _ _).symm

theorem keep_v1_9_3 : W9 m ρ c (Proc.devRef .tc main_v1) = W3 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := W8_of_ne m ρ c main_v1 (by decide)
    _ = W6 m ρ c (Proc.devRef .tc main_v1) := by
          show StableHlo.after hostOps2 (W6 m ρ c) (Proc.devRef .tc main_v1) = _
          dsimp only [hostOps2]
          after_results
    _ = W5 m ρ c (Proc.devRef .tc main_v1) := W6_of_ne m ρ c main_v1 (by decide)
    _ = W4 m ρ c (Proc.devRef .tc main_v1) := by
          show StableHlo.after hostOps1 (W4 m ρ c) (Proc.devRef .tc main_v1) = _
          dsimp only [hostOps1]
          after_results
    _ = W3 m ρ c (Proc.devRef .tc main_v1) := W4_of_ne m ρ c main_v1 (by decide)

theorem keep_v32_9_3 : W9 m ρ c (Proc.devRef .tc main_v32) = W3 m ρ c (Proc.devRef .tc main_v32) :=
  calc W9 m ρ c (Proc.devRef .tc main_v32)
    _ = W8 m ρ c (Proc.devRef .tc main_v32) := W9_of_ne m ρ c main_v32 (by decide)
    _ = W7 m ρ c (Proc.devRef .tc main_v32) := W8_of_ne m ρ c main_v32 (by decide)
    _ = W6 m ρ c (Proc.devRef .tc main_v32) := by
          show StableHlo.after hostOps2 (W6 m ρ c) (Proc.devRef .tc main_v32) = _
          dsimp only [hostOps2]
          after_results
    _ = W5 m ρ c (Proc.devRef .tc main_v32) := W6_of_ne m ρ c main_v32 (by decide)
    _ = W4 m ρ c (Proc.devRef .tc main_v32) := by
          show StableHlo.after hostOps1 (W4 m ρ c) (Proc.devRef .tc main_v32) = _
          dsimp only [hostOps1]
          after_results
    _ = W3 m ρ c (Proc.devRef .tc main_v32) := W4_of_ne m ρ c main_v32 (by decide)

set_option maxHeartbeats 2000000 in
theorem w10_v55 : W10 m ρ c (Proc.devRef .tc main_v55) = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps4 (W9 m ρ c) (Proc.devRef .tc main_v55) = _
  dsimp only [hostOps4]
  after_results
  rw [w9_v48 m ρ c, keep_v1_9_3 m ρ c, w3_v1 m ρ c]
  rfl

set_option maxHeartbeats 2000000 in
theorem w10_v56 : W10 m ρ c (Proc.devRef .tc main_v56) = (shapeCast S1600000x1 (Cert.ReferenceIdeal.Read.val_main_v32 (F := Ideal) (m ((c.tc : Thread nD τ).loc main_arg1)) (m ((c.tc : Thread nD τ).loc main_arg2))) shapeCasts_S1600000_S1600000x1) := by
  show StableHlo.after hostOps4 (W9 m ρ c) (Proc.devRef .tc main_v56) = _
  dsimp only [hostOps4]
  after_results
  rw [keep_v32_9_3 m ρ c, w3_v32 m ρ c]
  rfl

theorem w11_v57 : W11 m ρ c (Proc.devRef .tc main_v57) = Cert.ReferenceIdeal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W11_arr m ρ c 2).trans ((Reg4.final (V10 m ρ) c).trans ?_)
  show Cert.GcnSpec.scaleRows 1600000 128 (W10 m ρ c (Proc.devRef .tc main_v55)) (W10 m ρ c (Proc.devRef .tc main_v56)) = _
  rw [w10_v55 m ρ c, w10_v56 m ρ c]
  exact Cert.ReferenceIdeal.RefOps.scale128_eq _ _ _

theorem keep_v3_11_3 : W11 m ρ c (Proc.devRef .tc main_v3) = W3 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := by
          show StableHlo.after hostOps4 (W9 m ρ c) (Proc.devRef .tc main_v3) = _
          dsimp only [hostOps4]
          after_results
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by
          show StableHlo.after hostOps2 (W6 m ρ c) (Proc.devRef .tc main_v3) = _
          dsimp only [hostOps2]
          after_results
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          dsimp only [hostOps1]
          after_results
    _ = W3 m ρ c (Proc.devRef .tc main_v3) := W4_of_ne m ρ c main_v3 (by decide)

theorem keep_arg6_11_3 : W11 m ρ c (Proc.devRef .tc main_arg6) = W3 m ρ c (Proc.devRef .tc main_arg6) :=
  calc W11 m ρ c (Proc.devRef .tc main_arg6)
    _ = W10 m ρ c (Proc.devRef .tc main_arg6) := W11_of_ne m ρ c main_arg6 (by decide)
    _ = W9 m ρ c (Proc.devRef .tc main_arg6) := by
          show StableHlo.after hostOps4 (W9 m ρ c) (Proc.devRef .tc main_arg6) = _
          dsimp only [hostOps4]
          after_results
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := by
          show StableHlo.after hostOps2 (W6 m ρ c) (Proc.devRef .tc main_arg6) = _
          dsimp only [hostOps2]
          after_results
    _ = W5 m ρ c (Proc.devRef .tc main_arg6) := W6_of_ne m ρ c main_arg6 (by decide)
    _ = W4 m ρ c (Proc.devRef .tc main_arg6) := by
          show StableHlo.after hostOps1 (W4 m ρ c) (Proc.devRef .tc main_arg6) = _
          dsimp only [hostOps1]
          after_results
    _ = W3 m ρ c (Proc.devRef .tc main_arg6) := W4_of_ne m ρ c main_arg6 (by decide)

set_option maxHeartbeats 2000000 in
theorem w12_v60 : W12 m ρ c (Proc.devRef .tc main_v60) = Cert.ReferenceIdeal.Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps5 (W11 m ρ c) (Proc.devRef .tc main_v60) = _
  dsimp only [hostOps5]
  after_results
  rw [w11_v57 m ρ c, keep_v3_11_3 m ρ c, w3_v3 m ρ c]
  rfl

set_option maxHeartbeats 2000000 in
theorem w12_v61 : W12 m ρ c (Proc.devRef .tc main_v61) = (shapeCast S1x128 (m ((c.tc : Thread nD τ).loc main_arg6)) shapeCasts_S128_S1x128) := by
  show StableHlo.after hostOps5 (W11 m ρ c) (Proc.devRef .tc main_v61) = _
  dsimp only [hostOps5]
  after_results
  rw [keep_arg6_11_3 m ρ c, w3_arg6 m ρ c]
  rfl

theorem w13_v62 : W13 m ρ c (Proc.devRef .tc main_v62) = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W13_arr m ρ c 2).trans ((Reg5.final (V12 m ρ) c).trans ?_)
  show Cert.GcnSpec.addBiasRelu 100000 128 (W12 m ρ c (Proc.devRef .tc main_v60)) (W12 m ρ c (Proc.devRef .tc main_v61)) = _
  rw [w12_v60 m ρ c, w12_v61 m ρ c]
  exact Cert.ReferenceIdeal.RefOps.bias128_eq _ _ _

theorem keep_arg7_13_3 : W13 m ρ c (Proc.devRef .tc main_arg7) = W3 m ρ c (Proc.devRef .tc main_arg7) :=
  calc W13 m ρ c (Proc.devRef .tc main_arg7)
    _ = W12 m ρ c (Proc.devRef .tc main_arg7) := W13_of_ne m ρ c main_arg7 (by decide)
    _ = W11 m ρ c (Proc.devRef .tc main_arg7) := by
          show StableHlo.after hostOps5 (W11 m ρ c) (Proc.devRef .tc main_arg7) = _
          dsimp only [hostOps5]
          after_results
    _ = W10 m ρ c (Proc.devRef .tc main_arg7) := W11_of_ne m ρ c main_arg7 (by decide)
    _ = W9 m ρ c (Proc.devRef .tc main_arg7) := by
          show StableHlo.after hostOps4 (W9 m ρ c) (Proc.devRef .tc main_arg7) = _
          dsimp only [hostOps4]
          after_results
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := by
          show StableHlo.after hostOps2 (W6 m ρ c) (Proc.devRef .tc main_arg7) = _
          dsimp only [hostOps2]
          after_results
    _ = W5 m ρ c (Proc.devRef .tc main_arg7) := W6_of_ne m ρ c main_arg7 (by decide)
    _ = W4 m ρ c (Proc.devRef .tc main_arg7) := by
          show StableHlo.after hostOps1 (W4 m ρ c) (Proc.devRef .tc main_arg7) = _
          dsimp only [hostOps1]
          after_results
    _ = W3 m ρ c (Proc.devRef .tc main_arg7) := W4_of_ne m ρ c main_arg7 (by decide)

/-! ## Layer 3 -/

theorem w14_v63 : W14 m ρ c (Proc.devRef .tc main_v63) = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W14_arr m ρ c 2).trans ((Reg6.final (V13 m ρ) c).trans ?_)
  show Cert.GcnSpec.dense 100000 64 (W13 m ρ c (Proc.devRef .tc main_v62)) (W13 m ρ c (Proc.devRef .tc main_arg7)) = _
  rw [w13_v62 m ρ c, keep_arg7_13_3 m ρ c, w3_arg7 m ρ c]
  exact (Cert.ReferenceIdeal.RefOps.dot64_eq _ _).symm

theorem keep_v1_14_3 : W14 m ρ c (Proc.devRef .tc main_v1) = W3 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := W13_of_ne m ρ c main_v1 (by decide)
    _ = W11 m ρ c (Proc.devRef .tc main_v1) := by
          show StableHlo.after hostOps5 (W11 m ρ c) (Proc.devRef .tc main_v1) = _
          dsimp only [hostOps5]
          after_results
    _ = W10 m ρ c (Proc.devRef .tc main_v1) := W11_of_ne m ρ c main_v1 (by decide)
    _ = W9 m ρ c (Proc.devRef .tc main_v1) := by
          show StableHlo.after hostOps4 (W9 m ρ c) (Proc.devRef .tc main_v1) = _
          dsimp only [hostOps4]
          after_results
    _ = W8 m ρ c (Proc.devRef .tc main_v1) := W9_of_ne m ρ c main_v1 (by decide)
    _ = W7 m ρ c (Proc.devRef .tc main_v1) := W8_of_ne m ρ c main_v1 (by decide)
    _ = W6 m ρ c (Proc.devRef .tc main_v1) := by
          show StableHlo.after hostOps2 (W6 m ρ c) (Proc.devRef .tc main_v1) = _
          dsimp only [hostOps2]
          after_results
    _ = W5 m ρ c (Proc.devRef .tc main_v1) := W6_of_ne m ρ c main_v1 (by decide)
    _ = W4 m ρ c (Proc.devRef .tc main_v1) := by
          show StableHlo.after hostOps1 (W4 m ρ c) (Proc.devRef .tc main_v1) = _
          dsimp only [hostOps1]
          after_results
    _ = W3 m ρ c (Proc.devRef .tc main_v1) := W4_of_ne m ρ c main_v1 (by decide)

theorem keep_v32_14_3 : W14 m ρ c (Proc.devRef .tc main_v32) = W3 m ρ c (Proc.devRef .tc main_v32) :=
  calc W14 m ρ c (Proc.devRef .tc main_v32)
    _ = W13 m ρ c (Proc.devRef .tc main_v32) := W14_of_ne m ρ c main_v32 (by decide)
    _ = W12 m ρ c (Proc.devRef .tc main_v32) := W13_of_ne m ρ c main_v32 (by decide)
    _ = W11 m ρ c (Proc.devRef .tc main_v32) := by
          show StableHlo.after hostOps5 (W11 m ρ c) (Proc.devRef .tc main_v32) = _
          dsimp only [hostOps5]
          after_results
    _ = W10 m ρ c (Proc.devRef .tc main_v32) := W11_of_ne m ρ c main_v32 (by decide)
    _ = W9 m ρ c (Proc.devRef .tc main_v32) := by
          show StableHlo.after hostOps4 (W9 m ρ c) (Proc.devRef .tc main_v32) = _
          dsimp only [hostOps4]
          after_results
    _ = W8 m ρ c (Proc.devRef .tc main_v32) := W9_of_ne m ρ c main_v32 (by decide)
    _ = W7 m ρ c (Proc.devRef .tc main_v32) := W8_of_ne m ρ c main_v32 (by decide)
    _ = W6 m ρ c (Proc.devRef .tc main_v32) := by
          show StableHlo.after hostOps2 (W6 m ρ c) (Proc.devRef .tc main_v32) = _
          dsimp only [hostOps2]
          after_results
    _ = W5 m ρ c (Proc.devRef .tc main_v32) := W6_of_ne m ρ c main_v32 (by decide)
    _ = W4 m ρ c (Proc.devRef .tc main_v32) := by
          show StableHlo.after hostOps1 (W4 m ρ c) (Proc.devRef .tc main_v32) = _
          dsimp only [hostOps1]
          after_results
    _ = W3 m ρ c (Proc.devRef .tc main_v32) := W4_of_ne m ρ c main_v32 (by decide)

set_option maxHeartbeats 2000000 in
theorem w15_v70 : W15 m ρ c (Proc.devRef .tc main_v70) = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps7 (W14 m ρ c) (Proc.devRef .tc main_v70) = _
  dsimp only [hostOps7]
  after_results
  rw [w14_v63 m ρ c, keep_v1_14_3 m ρ c, w3_v1 m ρ c]
  rfl

set_option maxHeartbeats 2000000 in
theorem w15_v71 : W15 m ρ c (Proc.devRef .tc main_v71) = (shapeCast S1600000x1 (Cert.ReferenceIdeal.Read.val_main_v32 (F := Ideal) (m ((c.tc : Thread nD τ).loc main_arg1)) (m ((c.tc : Thread nD τ).loc main_arg2))) shapeCasts_S1600000_S1600000x1) := by
  show StableHlo.after hostOps7 (W14 m ρ c) (Proc.devRef .tc main_v71) = _
  dsimp only [hostOps7]
  after_results
  rw [keep_v32_14_3 m ρ c, w3_v32 m ρ c]
  rfl

theorem w16_v72 : W16 m ρ c (Proc.devRef .tc main_v72) = Cert.ReferenceIdeal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W16_arr m ρ c 2).trans ((Reg7.final (V15 m ρ) c).trans ?_)
  show Cert.GcnSpec.scaleRows 1600000 64 (W15 m ρ c (Proc.devRef .tc main_v70)) (W15 m ρ c (Proc.devRef .tc main_v71)) = _
  rw [w15_v70 m ρ c, w15_v71 m ρ c]
  exact Cert.ReferenceIdeal.RefOps.scale64_eq _ _ _

theorem keep_v3_16_3 : W16 m ρ c (Proc.devRef .tc main_v3) = W3 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by
          show StableHlo.after hostOps7 (W14 m ρ c) (Proc.devRef .tc main_v3) = _
          dsimp only [hostOps7]
          after_results
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := by
          show StableHlo.after hostOps5 (W11 m ρ c) (Proc.devRef .tc main_v3) = _
          dsimp only [hostOps5]
          after_results
    _ = W10 m ρ c (Proc.devRef .tc main_v3) := W11_of_ne m ρ c main_v3 (by decide)
    _ = W9 m ρ c (Proc.devRef .tc main_v3) := by
          show StableHlo.after hostOps4 (W9 m ρ c) (Proc.devRef .tc main_v3) = _
          dsimp only [hostOps4]
          after_results
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := by
          show StableHlo.after hostOps2 (W6 m ρ c) (Proc.devRef .tc main_v3) = _
          dsimp only [hostOps2]
          after_results
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          dsimp only [hostOps1]
          after_results
    _ = W3 m ρ c (Proc.devRef .tc main_v3) := W4_of_ne m ρ c main_v3 (by decide)

theorem keep_arg8_16_3 : W16 m ρ c (Proc.devRef .tc main_arg8) = W3 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := by
          show StableHlo.after hostOps7 (W14 m ρ c) (Proc.devRef .tc main_arg8) = _
          dsimp only [hostOps7]
          after_results
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := by
          show StableHlo.after hostOps5 (W11 m ρ c) (Proc.devRef .tc main_arg8) = _
          dsimp only [hostOps5]
          after_results
    _ = W10 m ρ c (Proc.devRef .tc main_arg8) := W11_of_ne m ρ c main_arg8 (by decide)
    _ = W9 m ρ c (Proc.devRef .tc main_arg8) := by
          show StableHlo.after hostOps4 (W9 m ρ c) (Proc.devRef .tc main_arg8) = _
          dsimp only [hostOps4]
          after_results
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by
          show StableHlo.after hostOps2 (W6 m ρ c) (Proc.devRef .tc main_arg8) = _
          dsimp only [hostOps2]
          after_results
    _ = W5 m ρ c (Proc.devRef .tc main_arg8) := W6_of_ne m ρ c main_arg8 (by decide)
    _ = W4 m ρ c (Proc.devRef .tc main_arg8) := by
          show StableHlo.after hostOps1 (W4 m ρ c) (Proc.devRef .tc main_arg8) = _
          dsimp only [hostOps1]
          after_results
    _ = W3 m ρ c (Proc.devRef .tc main_arg8) := W4_of_ne m ρ c main_arg8 (by decide)

set_option maxHeartbeats 2000000 in
theorem w17_v75 : W17 m ρ c (Proc.devRef .tc main_v75) = Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps8 (W16 m ρ c) (Proc.devRef .tc main_v75) = _
  dsimp only [hostOps8]
  after_results
  rw [w16_v72 m ρ c, keep_v3_16_3 m ρ c, w3_v3 m ρ c]
  rfl

set_option maxHeartbeats 2000000 in
theorem w17_v76 : W17 m ρ c (Proc.devRef .tc main_v76) = (shapeCast S1x64 (m ((c.tc : Thread nD τ).loc main_arg8)) shapeCasts_S64_S1x64) := by
  show StableHlo.after hostOps8 (W16 m ρ c) (Proc.devRef .tc main_v76) = _
  dsimp only [hostOps8]
  after_results
  rw [keep_arg8_16_3 m ρ c, w3_arg8 m ρ c]
  rfl

theorem w18_v77 : W18 m ρ c (Proc.devRef .tc main_v77) = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W18_arr m ρ c 2).trans ((Reg8.final (V17 m ρ) c).trans ?_)
  show Cert.GcnSpec.addBias 100000 64 (W17 m ρ c (Proc.devRef .tc main_v75)) (W17 m ρ c (Proc.devRef .tc main_v76)) = _
  rw [w17_v75 m ρ c, w17_v76 m ρ c]
  exact Cert.ReferenceIdeal.RefOps.bias64_eq _ _ _

end Cert.KernelIdeal.Chain

end
-- ==== Proof.lean ====
/-
  A three-layer graph convolution: the kernel program against its jnp reference, over the extended reals.

  Both programs first compute, by the same host operations of the same arguments, the symmetric normalisation
  coefficient of every edge and the wrapped source index of every edge.  A layer then maps node features `h` to
      out = segment_sum_over_destinations( coefficient[e] · (h · W)[source e, ·] ) + b      (clamped at zero in the two hidden layers).
  The kernel program computes `h · W` in ten blocks of 10000 node rows (each a matrix product into a zero
  accumulator, the operands narrowed to bf16 on the way in: the identity on extended reals), scales the gathered rows
  by the coefficient column in 160 blocks of 10000 edges, and adds the bias row (and clamps) in ten blocks of node
  rows; the reference does each of the three as one whole-array operation.  Block by block over disjoint row ranges
  that fill the output, each kernel region leaves one whole-array function of its operands (`GcnSpec`), which is the
  reference's operation element by element; the one algebraic law used is that the product of two extended reals
  commutes (the kernel multiplies row by coefficient, the reference coefficient by row).  The gathers and the
  segment sums are the same host operations applied to equal operands on both sides and are never opened.  No
  finiteness of the inputs is needed.

  The kernel's idealization rewrote no operation, so `preserves` is trivial.  The frames of the two kernel programs
  are the generated frame certificates; the reference's frame is its generated run with the results dropped.
-/
import proofs.«132683_j73830487818377_1_alg».proof.Defs
import proofs.«132683_j73830487818377_1_alg».proof.Proof.Gen.Kernel
import proofs.«132683_j73830487818377_1_alg».proof.Proof.Gen.Kernel.Frame
import proofs.«132683_j73830487818377_1_alg».proof.Proof.Gen.KernelIdeal
import proofs.«132683_j73830487818377_1_alg».proof.Proof.Gen.KernelIdeal.Frame
import proofs.«132683_j73830487818377_1_alg».proof.Proof.Gen.ReferenceIdeal
import proofs.«132683_j73830487818377_1_alg».proof.Proof.Gen.ReferenceIdeal.Run
import proofs.«132683_j73830487818377_1_alg».proof.Proof.Gen.ReferenceIdeal.Read
import proofs.«132683_j73830487818377_1_alg».proof.Proof.Gen.Pre_finite_inputs
import proofs.«132683_j73830487818377_1_alg».proof.Proof.RunNamed
import proofs.«132683_j73830487818377_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the result at the reference's last stage of the (agreeing) arguments: the kernel
    program by its fold of buffer contents read against the reference's stages, the reference by its run. -/
theorem algebraic : Cert.algebraic_KernelIdeal_ReferenceIdeal := by
  intro m ρ m' ρ' _ hagree
  refine ⟨fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c).1.trans (Cert.KernelIdeal.Chain.w18_v77 m ρ c), (h c).1.trans (Cert.KernelIdeal.Chain.w18_v77 m ρ c), (h c).2⟩)
      (Cert.KernelIdeal.Gen.run_named m ρ)
  · refine (θ_run Cert.ReferenceIdeal.defs _ _).mono (fun r h c => ?_) (Cert.ReferenceIdeal.Value.run (F := Ideal) m' ρ')
    have e : Cert.ReferenceIdeal.Value.res_main_v85 m' c
        = Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
      rw [Cert.ReferenceIdeal.Read.val_main_v85_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
